-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x2048 .f32) (main_arg5 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S4x2048x2048 .f32) (main_arg1 : FVec F S2048x2048 .f32) (main_arg2 : FVec F S2048x2048 .f32) (main_arg3 : FVec F S2048x2048 .f32) (main_arg4 : FVec F S2048x2048 .f32) (main_arg5 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S8192x2048 : Shape := ⟨2, ![8192, 2048]⟩
abbrev S512x2048 : Shape := ⟨2, ![512, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩
abbrev S1x2048 : Shape := ⟨2, ![1, 2048]⟩
abbrev S1x512x2048 : Shape := ⟨3, ![1, 512, 2048]⟩
abbrev S1x2048x512 : Shape := ⟨3, ![1, 2048, 512]⟩
abbrev S1x512x512 : Shape := ⟨3, ![1, 512, 512]⟩
abbrev S2048x512 : Shape := ⟨2, ![2048, 512]⟩
abbrev S512x512 : Shape := ⟨2, ![512, 512]⟩

abbrev nBuf : Space → Nat
  | .hbm => 22
  | .vmem => 37
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S8192x2048, .f32⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S8192x2048, .bf16⟩
  | .hbm, ⟨12, _⟩ => ⟨S8192x2048, .bf16⟩
  | .hbm, ⟨13, _⟩ => ⟨S8192x2048, .bf16⟩
  | .hbm, ⟨14, _⟩ => ⟨S4x2048x2048, .bf16⟩
  | .hbm, ⟨15, _⟩ => ⟨S4x2048x2048, .bf16⟩
  | .hbm, ⟨16, _⟩ => ⟨S4x2048x2048, .bf16⟩
  | .hbm, ⟨17, _⟩ => ⟨S4x2048x2048, .f32⟩
  | .hbm, ⟨18, _⟩ => ⟨S1x2048, .f32⟩
  | .hbm, ⟨19, _⟩ => ⟨S8192x2048, .bf16⟩
  | .hbm, ⟨20, _⟩ => ⟨S4x2048x2048, .bf16⟩
  | .hbm, ⟨21, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | .local _ .vmem, ⟨11, _⟩ => ⟨S512x2048, .f32⟩
  | .local _ .vmem, ⟨12, _⟩ => ⟨S2048x2048, .bf16⟩
  | .local _ .vmem, ⟨13, _⟩ => ⟨S512x2048, .bf16⟩
  | .local _ .vmem, ⟨14, _⟩ => ⟨S512x2048, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x1024x1024, .f32⟩
  | .local _ .vmem, ⟨20, _⟩ => ⟨S1x1024x1024, .f32⟩
  | .local _ .vmem, ⟨21, _⟩ => ⟨S512x2048, .bf16⟩
  | .local _ .vmem, ⟨22, _⟩ => ⟨S512x2048, .bf16⟩
  | .local _ .vmem, ⟨23, _⟩ => ⟨S2048x2048, .bf16⟩
  | .local _ .vmem, ⟨24, _⟩ => ⟨S1x2048, .f32⟩
  | .local _ .vmem, ⟨25, _⟩ => ⟨S512x2048, .bf16⟩
  | .local _ .vmem, ⟨26, _⟩ => ⟨S512x2048, .bf16⟩
  | .local _ .vmem, ⟨27, _⟩ => ⟨S1x512x2048, .bf16⟩
  | .local _ .vmem, ⟨28, _⟩ => ⟨S1x512x2048, .bf16⟩
  | .local _ .vmem, ⟨29, _⟩ => ⟨S1x512x2048, .bf16⟩
  | .local _ .vmem, ⟨30, _⟩ => ⟨S1x512x2048, .bf16⟩
  | .local _ .vmem, ⟨31, _⟩ => ⟨S1x2048x512, .f32⟩
  | .local _ .vmem, ⟨32, _⟩ => ⟨S1x2048x512, .f32⟩
  | .local _ .vmem, ⟨33, _⟩ => ⟨S1x512x512, .bf16⟩
  | .local _ .vmem, ⟨34, _⟩ => ⟨S1x512x512, .bf16⟩
  | .local _ .vmem, ⟨35, _⟩ => ⟨S1x512x512, .f32⟩
  | .local _ .vmem, ⟨36, _⟩ => ⟨S1x512x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc5_stg3_0 : Ref sig .tc := ⟨.vmem, 33, rfl⟩
abbrev cc5_stg3_1 : Ref sig .tc := ⟨.vmem, 34, rfl⟩
abbrev cc5_stg4_0 : Ref sig .tc := ⟨.vmem, 35, rfl⟩
abbrev cc5_stg4_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem3_0 : DmaSem sig := 25
abbrev cc4_sem3_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32
abbrev cc5_sem3_0 : DmaSem sig := 33
abbrev cc5_sem3_1 : DmaSem sig := 34
abbrev cc5_sem4_0 : DmaSem sig := 35
abbrev cc5_sem4_1 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![4, 2, 2], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage3_0 : Fin 2 → Memref sig .tc .vmem S1x2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨3, ![4, 4, 4], ![false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc5_transform_4 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage5_0 : Fin 2 → Memref sig .tc .vmem S1x512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x512x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true, false]

abbrev stage5_2 : Fin 2 → Memref sig .tc .vmem S1x2048x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1x512x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, true]

abbrev stage5_4 : Fin 2 → Memref sig .tc .vmem S1x512x512 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true, true]

class Facts₀ : Prop where
  shapeCasts_S4x2048x2048_S8192x2048 : S4x2048x2048.ShapeCasts S8192x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S512x2048_S512x2048_0_0 : (Rect.unit (s := S512x2048) ![0, 0] S512x2048.size inb_S512x2048_S512x2048_0_0).PackedRows (EltTy.packing .bf16)
  shapeCasts_S8192x2048_S4x2048x2048 : S8192x2048.ShapeCasts S4x2048x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x2048_S2048x2048_S512x2048_1_0_0_1_n_n_wf : DotDims.WF S512x2048 S2048x2048 S512x2048 [1] [0] [0] [1] [] []
  dot_S2048x1024_S2048x1024_S1024x1024_0_0_1_1_n_n_wf : DotDims.WF S2048x1024 S2048x1024 S1024x1024 [0] [0] [1] [1] [] []
  dot_S512x2048_S512x2048_S512x512_1_1_0_0_n_n_wf : DotDims.WF S512x2048 S512x2048 S512x512 [1] [1] [0] [0] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S8192x2048.size a
  hwx1_2 : ∀ i : grid1.Coords, EltTy.bits .bf16 = 32 ∨ (Rect.block (s := S8192x2048) S512x2048.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x2048.size a
  hwx2_0 : ∀ i : grid2.Coords, EltTy.bits .f32 = 32 ∨ (Rect.block (s := S8192x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S8192x2048.size a
  hwx2_2 : ∀ i : grid2.Coords, EltTy.bits .bf16 = 32 ∨ (Rect.block (s := S8192x2048) S512x2048.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048x1024.size a ≤ S4x2048x2048.size a
  hwx3_0 : ∀ i : grid3.Coords, EltTy.bits .bf16 = 32 ∨ (Rect.block (s := S4x2048x2048) S1x2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S4x2048x2048.size a
  hwx3_1 : ∀ i : grid3.Coords, EltTy.bits .bf16 = 32 ∨ (Rect.block (s := S4x2048x2048) S1x2048x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024x1024.size a ≤ S4x2048x2048.size a
  hwx3_2 : ∀ i : grid3.Coords, EltTy.bits .f32 = 32 ∨ (Rect.block (s := S4x2048x2048) S1x1024x1024.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S8192x2048.size a
  hwx4_0 : ∀ i : grid4.Coords, EltTy.bits .bf16 = 32 ∨ (Rect.block (s := S8192x2048) S512x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x2048.size a ≤ S2048x2048.size a
  hwx4_1 : ∀ i : grid4.Coords, EltTy.bits .bf16 = 32 ∨ (Rect.block (s := S2048x2048) S2048x2048.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x2048.size a
  hwx4_2 : ∀ i : grid4.Coords, EltTy.bits .f32 = 32 ∨ (Rect.block (s := S1x2048) S1x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x2048.size a ≤ S8192x2048.size a
  hwx4_3 : ∀ i : grid4.Coords, EltTy.bits .bf16 = 32 ∨ (Rect.block (s := S8192x2048) S512x2048.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x512x2048.size a ≤ S4x2048x2048.size a
  hwx5_0 : ∀ i : grid5.Coords, EltTy.bits .bf16 = 32 ∨ (Rect.block (s := S4x2048x2048) S1x512x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x512x2048.size a ≤ S4x2048x2048.size a
  hwx5_1 : ∀ i : grid5.Coords, EltTy.bits .bf16 = 32 ∨ (Rect.block (s := S4x2048x2048) S1x512x2048.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x2048x512.size a ≤ S4x2048x2048.size a
  hwx5_2 : ∀ i : grid5.Coords, EltTy.bits .f32 = 32 ∨ (Rect.block (s := S4x2048x2048) S1x2048x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x512x512.size a ≤ S4x2048x2048.size a
  hwx5_3 : ∀ i : grid5.Coords, EltTy.bits .bf16 = 32 ∨ (Rect.block (s := S4x2048x2048) S1x512x512.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x512x512.size a ≤ S4x2048x2048.size a
  hwx5_4 : ∀ i : grid5.Coords, EltTy.bits .f32 = 32 ∨ (Rect.block (s := S4x2048x2048) S1x512x512.size (cc5_transform_4 i) (hinb5_4 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S2048x1024_S2048x1024_S1024x1024_0_0_1_1_n_n : DotDims S2048x1024 S2048x1024 S1024x1024 where
  lhsContracting := [0]
  rhsContracting := [0]
  lhsNonContracting := [1]
  rhsNonContracting := [1]
  lhsBatch := []
  rhsBatch := []
  wf := dot_S2048x1024_S2048x1024_S1024x1024_0_0_1_1_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S512x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v9) S1x2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1x2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v7) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S2048x2048.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v12) S1x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v13) S512x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v8) S1x512x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v9) S1x512x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S1x2048x512.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v14) S1x512x512.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v15) S1x512x512.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S1x1x2048 : Shape := ⟨3, ![1, 1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048x2048, .f32⟩
  | .hbm, ⟨14, _⟩ => ⟨S4x2048x2048, .i1⟩
  | .hbm, ⟨15, _⟩ => ⟨S_, .f32⟩
  | .hbm, ⟨16, _⟩ => ⟨S4x2048x2048, .f32⟩
  | .hbm, ⟨17, _⟩ => ⟨S4x2048x2048, .i1⟩
  | .hbm, ⟨18, _⟩ => ⟨S_, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048x2048, .f32⟩
  | .hbm, ⟨35, _⟩ => ⟨S4x2048x2048, .i1⟩
  | .hbm, ⟨36, _⟩ => ⟨S_, .f32⟩
  | .hbm, ⟨37, _⟩ => ⟨S4x2048x2048, .f32⟩
  | .hbm, ⟨38, _⟩ => ⟨S4x2048x2048, .i1⟩
  | .hbm, ⟨39, _⟩ => ⟨S_, .f32⟩
  | .hbm, ⟨40, _⟩ => ⟨S_, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x2048x2048, .f32⟩
  | .hbm, ⟨46, _⟩ => ⟨S4x2048x2048, .f32⟩
  | .hbm, ⟨47, _⟩ => ⟨S4x2048x2048, .f32⟩
  | .hbm, ⟨48, _⟩ => ⟨S_, .f32⟩
  | .hbm, ⟨49, _⟩ => ⟨S4x2048x2048, .f32⟩
  | .hbm, ⟨50, _⟩ => ⟨S4x2048x2048, .f32⟩
  | .hbm, ⟨51, _⟩ => ⟨S4x2048x2048, .f32⟩
  | .hbm, ⟨52, _⟩ => ⟨S4x2048x2048, .f32⟩
  | .hbm, ⟨53, _⟩ => ⟨S_, .f32⟩
  | .hbm, ⟨54, _⟩ => ⟨S4x2048x2048, .f32⟩
  | .hbm, ⟨55, _⟩ => ⟨S4x2048x2048, .f32⟩
  | .hbm, ⟨56, _⟩ => ⟨S4x2048x2048, .f32⟩
  | .hbm, ⟨57, _⟩ => ⟨S4x2048x2048, .f32⟩
  | .hbm, ⟨58, _⟩ => ⟨S1x1x2048, .f32⟩
  | .hbm, ⟨59, _⟩ => ⟨S4x2048x2048, .f32⟩
  | .hbm, ⟨60, _⟩ => ⟨S4x2048x2048, .f32⟩
  | .hbm, ⟨61, _⟩ => ⟨S4x2048x2048, .f32⟩
  | .hbm, ⟨62, _⟩ => ⟨S4x2048x2048, .f32⟩
  | .hbm, ⟨63, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_cst_1 : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_v4 : Ref sig .tc := ⟨.hbm, 21, rfl⟩
abbrev main_call0_v5 : Ref sig .tc := ⟨.hbm, 22, rfl⟩
abbrev main_call0_cst_2 : Ref sig .tc := ⟨.hbm, 23, rfl⟩
abbrev main_call0_v6 : Ref sig .tc := ⟨.hbm, 24, rfl⟩
abbrev main_call0_v7 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_cst_0 : Ref sig .tc := ⟨.hbm, 36, rfl⟩
abbrev main_call1_v2 : Ref sig .tc := ⟨.hbm, 37, rfl⟩
abbrev main_call1_v3 : Ref sig .tc := ⟨.hbm, 38, rfl⟩
abbrev main_call1_cst_1 : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_v4 : Ref sig .tc := ⟨.hbm, 42, rfl⟩
abbrev main_call1_v5 : Ref sig .tc := ⟨.hbm, 43, rfl⟩
abbrev main_call1_cst_2 : Ref sig .tc := ⟨.hbm, 44, rfl⟩
abbrev main_call1_v6 : Ref sig .tc := ⟨.hbm, 45, rfl⟩
abbrev main_call1_v7 : Ref sig .tc := ⟨.hbm, 46, rfl⟩
abbrev main_v10 : Ref sig .tc := ⟨.hbm, 47, rfl⟩
abbrev main_cst_2 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_cst_3 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S2048x2048_S4x2048x2048_2_0_01_1_n_n_wf : DotDims.WF S4x2048x2048 S2048x2048 S4x2048x2048 [2] [0] [0, 1] [1] [] []
  dot_S4x2048x2048_S4x2048x2048_S4x2048x2048_1_1_2_2_0_0_wf : DotDims.WF S4x2048x2048 S4x2048x2048 S4x2048x2048 [1] [1] [2] [2] [0] [0]
  dot_S4x2048x2048_S4x2048x2048_S4x2048x2048_2_2_1_1_0_0_wf : DotDims.WF S4x2048x2048 S4x2048x2048 S4x2048x2048 [2] [2] [1] [1] [0] [0]
  dot_S4x2048x2048_S4x2048x2048_S4x2048x2048_2_1_1_2_0_0_wf : DotDims.WF S4x2048x2048 S4x2048x2048 S4x2048x2048 [2] [1] [1] [2] [0] [0]

variable [Facts₀]

def dot_S4x2048x2048_S2048x2048_S4x2048x2048_2_0_01_1_n_n : DotDims S4x2048x2048 S2048x2048 S4x2048x2048 where
  lhsContracting := [2]
  rhsContracting := [0]
  lhsNonContracting := [0, 1]
  rhsNonContracting := [1]
  lhsBatch := []
  rhsBatch := []
  wf := dot_S4x2048x2048_S2048x2048_S4x2048x2048_2_0_01_1_n_n_wf
def dot_S4x2048x2048_S4x2048x2048_S4x2048x2048_1_1_2_2_0_0 : DotDims S4x2048x2048 S4x2048x2048 S4x2048x2048 where
  lhsContracting := [1]
  rhsContracting := [1]
  lhsNonContracting := [2]
  rhsNonContracting := [2]
  lhsBatch := [0]
  rhsBatch := [0]
  wf := dot_S4x2048x2048_S4x2048x2048_S4x2048x2048_1_1_2_2_0_0_wf
def dot_S4x2048x2048_S4x2048x2048_S4x2048x2048_2_2_1_1_0_0 : DotDims S4x2048x2048 S4x2048x2048 S4x2048x2048 where
  lhsContracting := [2]
  rhsContracting := [2]
  lhsNonContracting := [1]
  rhsNonContracting := [1]
  lhsBatch := [0]
  rhsBatch := [0]
  wf := dot_S4x2048x2048_S4x2048x2048_S4x2048x2048_2_2_1_1_0_0_wf
def dot_S4x2048x2048_S4x2048x2048_S4x2048x2048_2_1_1_2_0_0 : DotDims S4x2048x2048 S4x2048x2048 S4x2048x2048 where
  lhsContracting := [2]
  rhsContracting := [1]
  lhsNonContracting := [1]
  rhsNonContracting := [2]
  lhsBatch := [0]
  rhsBatch := [0]
  wf := dot_S4x2048x2048_S4x2048x2048_S4x2048x2048_2_1_1_2_0_0_wf

class Facts : Prop extends Facts₀ where

variable [Facts]
-- ==== Proof.KRun.lean ====
/-
  The staged program's run, with its result named.

  The program is ten segments: stretches of host operations (reshapes and changes of float format) and six pipelined
  regions. The buffer contents at each boundary are a fold from the launch memory; every weakly fair execution
  terminates, faults nowhere, and ends with every unscoped buffer at the last boundary's contents. Read at the result
  buffer that is the statement below; read at the six argument buffers it is that they end as launched, since no
  segment writes one.
-/
import proofs.«151263_j38036230373788_2_alg».proof.Proof.Gen.KernelIdeal.Frame

set_option maxRecDepth 16384

noncomputable section

namespace Cert.KernelIdeal.StagedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the staged program terminates, nothing faulting; the result buffer ends at the last
    boundary's contents and the six argument arrays end as launched. -/
theorem run : θ_run defs (onTc (τ := τ) (main (F := F))) ⟨m, fun _ => 0, ρ⟩ (fun r => ∀ c : Dev nD,
      r.2.mem ((c.tc : Thread nD τ).loc main_v15) = W10 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v15 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.StagedRun

end
-- ==== Proof.Spec.lean ====
/-
  Linear attention with an ELU+1 feature map, as one function of its six arrays, over the extended reals.

  From x [4, 2048, 2048] and four square weights the computation forms q = φ(x·Wq), k = φ(x·Wk), v = x·Wv with
  φ(a) = elu(a·s) + 1 (s a fixed scale; elu(z) + 1 is z + 1 above zero and exp z elsewhere), then per batch the memory
  Mᵦ = kᵦᵀ·vᵦ, and the result

      out(b, t, d) = ( ∑ c, q(b,t,c) · M(b,c,d) + tanh( ∑ c, v(b,t,c) · Wo(c,d) + bo(d) ) )
                     / ( ∑ c, q(b,t,c) · k(b,d,c) + ε ).

  The pieces below are stated once, over plain index types, so that each stage of a staged computation (row-block
  products over the [8192, 2048] flattening of the first two axes; a per-batch contraction over time; the final
  quotient) and the one-pass formula can both be read as the same composition.
-/
import Idealize.ShloMosaic.PureOps.Ideal
import Idealize.ShloMosaic.Lib.ValueIdx

noncomputable section

namespace Cert.Attn

open Idealize.ShloMosaic Idealize.ShloMosaic.ValueIdx

/-- The shapes: a batch of four [2048, 2048] matrices; a square weight; the [8192, 2048] flattening of the first two
    axes; a one-row matrix; a vector. -/
abbrev T3 : Shape := ⟨3, ![4, 2048, 2048]⟩
abbrev M2 : Shape := ⟨2, ![2048, 2048]⟩
abbrev R2 : Shape := ⟨2, ![8192, 2048]⟩
abbrev B2 : Shape := ⟨2, ![1, 2048]⟩
abbrev B1 : Shape := ⟨1, ![2048]⟩

/-- The feature map's scale (the single-precision value nearest 1/√2048), the number one, and the denominator's ε,
    each as the extended real its bit pattern denotes: the same patterns on both sides, never evaluated. -/
def dk : EReal := Ideal.ofBits .f32 0x3CB504F3#32
def one : EReal := Ideal.ofBits .f32 0x3F800000#32
def eps : EReal := Ideal.ofBits .f32 0x322BCC77#32

/-- φ(a) = elu(a·s) + 1, in the form "z + 1 above zero, exp z elsewhere". -/
def fm (a : EReal) : EReal := if 0 < a * dk then a * dk + one else Ideal.exp (a * dk)

/-- Entry (r, o) of X · W for X of 8192 rows. -/
def rowsTimes (X : R2.Idx → EReal) (W : M2.Idx → EReal) (r : Fin 8192) (o : Fin 2048) : EReal :=
  ∑ k : Fin 2048, X (ix2 r k) * W (ix2 k o)

/-- X · W. -/
def P2 (X : R2.Idx → EReal) (W : M2.Idx → EReal) : R2.Idx → EReal := fun i => rowsTimes X W (i 0) (i 1)
/-- φ(X · W), entry by entry. -/
def P2fm (X : R2.Idx → EReal) (W : M2.Idx → EReal) : R2.Idx → EReal := fun i => fm (rowsTimes X W (i 0) (i 1))
/-- tanh(X · W + b), the one row b added to every row. -/
def P2t (X : R2.Idx → EReal) (W : M2.Idx → EReal) (b : B2.Idx → EReal) : R2.Idx → EReal :=
  fun i => Ideal.tanh (rowsTimes X W (i 0) (i 1) + b (ix2 (0 : Fin 1) (i 1)))
/-- The memory: per batch b, entry (c, d) of Kᵦᵀ · Vᵦ, a sum over time. -/
def Mem (K V : T3.Idx → EReal) : T3.Idx → EReal :=
  fun i => ∑ t : Fin 2048, K (ix3 (i 0) t (i 1)) * V (ix3 (i 0) t (i 2))
/-- The quotient: (Qᵦ · Mᵦ + T) / (Qᵦ · Kᵦᵀ + ε), entry by entry (time and channel extents agree, so the
    denominator is read at the output's own index). -/
def Out (Q K M T : T3.Idx → EReal) : T3.Idx → EReal := fun i =>
  Ideal.div ((∑ c : Fin 2048, Q (ix3 (i 0) (i 1) c) * M (ix3 (i 0) c (i 2))) + T i)
    ((∑ c : Fin 2048, Q (ix3 (i 0) (i 1) c) * K (ix3 (i 0) (i 2) c)) + eps)

/-- Row b · 2048 + t of the flattening. -/
def flat (b : Fin 4) (t : Fin 2048) : Fin 8192 := ⟨b.val * 2048 + t.val, by omega⟩

/-- The [4, 2048, 2048] array read as [8192, 2048] (row-major), and back; a vector as a one-row matrix. -/
def toRows (x : T3.Idx → EReal) : R2.Idx → EReal :=
  fun i => x (ix3 (⟨(i 0).val / 2048, by have := idx2_lt0 i; omega⟩ : Fin 4)
    (⟨(i 0).val % 2048, Nat.mod_lt _ (by decide)⟩ : Fin 2048) (i 1))
def ofRows (y : R2.Idx → EReal) : T3.Idx → EReal := fun i => y (ix2 (flat (i 0) (i 1)) (i 2))
def rowVec (b : B1.Idx → EReal) : B2.Idx → EReal := fun i => b (ix1 (i 1))

theorem toRows_flat (x : T3.Idx → EReal) (b : Fin 4) (t k : Fin 2048) : toRows x (ix2 (flat b t) k) = x (ix3 b t k) := by
  unfold toRows flat
  have h1 : (b.val * 2048 + t.val) / 2048 = b.val := by have := t.isLt; omega
  have h2 : (b.val * 2048 + t.val) % 2048 = t.val := by have := t.isLt; omega
  exact congrArg x (funext fun a => Fin.ext (by
    match a with
    | ⟨0, _⟩ => exact h1
    | ⟨1, _⟩ => exact h2
    | ⟨2, _⟩ => rfl))

/-- The whole computation, staged: the three projections over the flattened rows, the memory, the tanh term, the
    quotient. -/
def G (x : T3.Idx → EReal) (Wq Wk Wv Wo : M2.Idx → EReal) (bo : B1.Idx → EReal) : T3.Idx → EReal :=
  Out (ofRows (P2fm (toRows x) Wq)) (ofRows (P2fm (toRows x) Wk))
    (Mem (ofRows (P2fm (toRows x) Wk)) (ofRows (P2 (toRows x) Wv)))
    (ofRows (P2t (P2 (toRows x) Wv) Wo (rowVec bo)))

end Cert.Attn

end
-- ==== Proof.Layout.lean ====
/-
  The three re-layouts of the staged computation, each a row-major reshape read at an index: a [4, 2048, 2048] array
  as [8192, 2048] (row b · 2048 + t holds the old row (b, t)), the way back, and a vector as a one-row matrix. A
  row-major reshape keeps every entry's position in the row-major order, so each is the index function it looks like.
-/
import proofs.«151263_j38036230373788_2_alg».proof.Proof.Spec
import Idealize.ShloMosaic.Lib.Pipeline.Value

noncomputable section

namespace Cert.Attn

open Idealize.ShloMosaic Idealize.ShloMosaic.ValueIdx

/-- [4, 2048, 2048] read as [8192, 2048]: entry (r, k) is the old entry (r / 2048, r % 2048, k). -/
theorem shapeCast_toRows (x : T3.Idx → EReal) (h : T3.ShapeCasts R2) : shapeCast R2 x h = toRows x := by
  funext j
  obtain ⟨r, k, rfl⟩ : ∃ (r : Fin 8192) (k : Fin 2048), j = ix2 r k := ⟨j 0, j 1, eq_ix2 j⟩
  refine shapeCast_apply x h (ix2 r k) _ ?_
  rw [Shape.rowMajor_val_three, Shape.rowMajor_val_two]
  show (r.val / 2048 * 2048 + r.val % 2048) * 2048 + k.val = r.val * 2048 + k.val
  have := Nat.div_add_mod r.val 2048
  omega

/-- [8192, 2048] read as [4, 2048, 2048]: entry (b, t, d) is the old entry (b · 2048 + t, d). -/
theorem shapeCast_ofRows (y : R2.Idx → EReal) (h : R2.ShapeCasts T3) : shapeCast T3 y h = ofRows y := by
  funext j
  obtain ⟨b, t, d, rfl⟩ : ∃ (b : Fin 4) (t d : Fin 2048), j = ix3 b t d := ⟨j 0, j 1, j 2, eq_ix3 j⟩
  refine shapeCast_apply y h (ix3 b t d) _ ?_
  rw [Shape.rowMajor_val_three, Shape.rowMajor_val_two]
  rfl

/-- A vector read as a one-row matrix: entry (0, d) is the old entry d. -/
theorem shapeCast_rowVec (b : B1.Idx → EReal) (h : B1.ShapeCasts B2) : shapeCast B2 b h = rowVec b := by
  funext j
  obtain ⟨z, d, rfl⟩ : ∃ (z : Fin 1) (d : Fin 2048), j = ix2 z d := ⟨j 0, j 1, eq_ix2 j⟩
  refine shapeCast_apply b h (ix2 z d) _ ?_
  rw [Shape.rowMajor_val_one, Shape.rowMajor_val_two]
  show d.val = z.val * 2048 + d.val
  have := z.isLt
  omega

end Cert.Attn

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.KRows.lean ====
/-
  The row-block regions of the staged computation, each read as one function of the arrays it finds.

  Four of the six regions walk the [8192, 2048] flattening in sixteen blocks of 512 rows. At each block they multiply
  the block by a whole [2048, 2048] weight (the product accumulated into a zero block, so entry (p, q) is the plain sum
  over the contracted coordinate), apply an entrywise map (the feature map z ↦ z + 1 above zero, exp z elsewhere, of
  the scaled product; nothing; or tanh after adding one bias row to every row), and write the block back to the same
  rows of the output. Since the sixteen blocks tile the rows, the output array ends as the whole-array function
  φ(X · W), X · W or tanh(X · W + b) of the arrays the region was entered with.

  Per region: the block's arithmetic at an entry; where each staged block sits in its array (block index × block
  size + the coordinate inside the block); what one grid point writes back; the tiling; the whole array.
-/
import proofs.«151263_j38036230373788_2_alg».proof.Proof.Gen.KernelIdeal.Frame
import proofs.«151263_j38036230373788_2_alg».proof.Proof.Spec
import proofs.«151263_j38036230373788_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.RegionValue

open Idealize.ShloMosaic Idealize.ShloMosaic.TcCoe Idealize.SL.Sem
open Idealize.ShloMosaic.Pipeline (Dat)
open Cert.KernelIdeal Cert.KernelIdeal.Gen
open Idealize.ShloMosaic.ValueIdx

/-- The printed dimension record of an [512, 2048] × [2048, 2048] product is the plain one. -/
theorem rows_dot_plain : dot_S512x2048_S2048x2048_S512x2048_1_0_0_1_n_n = DotDims.plain 512 2048 2048 := rfl

/-- Entry (p, q) of a block product into the zero block: the sum over the contracted coordinate. -/
theorem rows_mm_apply (A : FVec Ideal S512x2048 .bf16) (B : FVec Ideal S2048x2048 .bf16) (p : Fin 512) (q : Fin 2048) :
    matmul dot_S512x2048_S2048x2048_S512x2048_1_0_0_1_n_n none A B (constant S512x2048 .f32 0x00000000#32) (ix2 p q)
      = ∑ k : Fin 2048, A (ix2 p k) * B (ix2 k q) := by
  rw [rows_dot_plain]; exact Cert.Lib.matmul_plain_zero_apply none A B p q

theorem rows_exp_apply {s : Shape} {φ : FTy} (a : FVec Ideal s φ) (i : s.Idx) : exp a i = Ideal.exp (a i) := rfl
theorem rows_tanh_apply {s : Shape} {φ : FTy} (a : FVec Ideal s φ) (i : s.Idx) : tanh a i = Ideal.tanh (a i) := rfl

/-- "Greater than zero" as a one-bit value, then the choice it makes. -/
theorem rows_select_ogt_zero (x u v : EReal) :
    Scalar.select (Ideal.cmp .ogt x 0) u v = if 0 < x then u else v := by
  have hc : Ideal.cmp .ogt x 0 = BitVec.ofBool (decide (0 < x)) := rfl
  rw [hc]
  by_cases h : 0 < x
  · rw [if_pos h, decide_eq_true h]; exact select_one u v
  · rw [if_neg h, decide_eq_false h]; exact select_zero u v

/-- The feature map as the kernel computes it, at one value. -/
theorem rows_fm_kernel (a : EReal) :
    Scalar.select (FloatOps.cmpf (F := Ideal) (φ := .f32) .ogt (a * FloatOps.ofBits (F := Ideal) .f32 0x3CB504F3#32) (FloatOps.ofBits (F := Ideal) .f32 0x00000000#32))
      (a * FloatOps.ofBits (F := Ideal) .f32 0x3CB504F3#32 + FloatOps.ofBits (F := Ideal) .f32 0x3F800000#32)
      (Ideal.exp (a * FloatOps.ofBits (F := Ideal) .f32 0x3CB504F3#32)) = Cert.Attn.fm a := by
  rw [Ideal.cmpf_def]
  show Scalar.select (Ideal.cmp .ogt (a * Ideal.ofBits .f32 0x3CB504F3#32) (Ideal.ofBits .f32 0x00000000#32)) _ _ = _
  rw [Ideal.ofBits_zero_f32, rows_select_ogt_zero]
  rfl

variable (V : (c : Dev nD) → (b : Ref sig .tc) → Buf (Elt Ideal) ((c : Thread nD τ).loc b))

/-- The zero offsets of a whole-block access, as the constant function. -/
theorem rows_hz : (![0, 0] : Fin 2 → Nat) = fun _ => 0 := funext fun a => by fin_cases a <;> rfl

/-! ## Region 0 -/

/-- The block's arithmetic at entry (p, q): the feature map of the row-by-column sum. -/
theorem pay0_apply (x0 : Vec Ideal S512x2048 .f32) (x1 : Vec Ideal S2048x2048 .bf16) (p : Fin 512) (q : Fin 2048) :
    k0_pay1 (F := Ideal) x0 x1 (ix2 p q) = Cert.Attn.fm (∑ k : Fin 2048, x0 (ix2 p k) * x1 (ix2 k q)) := by
  unfold k0_pay1
  simp only [shapeCast_self]
  rw [truncf_apply, select_apply, cmpf_apply, addf_apply, mulf_apply, broadcast_apply, broadcast_apply, broadcast_apply,
    rows_exp_apply, mulf_apply, broadcast_apply, rows_mm_apply]
  simp only [truncf_apply]
  exact rows_fm_kernel _

/-- The index maps over the grid: the row blocks move with the point, the weight stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The staged row block at point t is rows 512 t … 512 t + 511 of the array. -/
theorem iblk0_0_apply (c : Dev nD) (t : Fin cfg0.N) (x : S512x2048.Idx) (k : S8192x2048.Idx)
    (hk0 : (k 0).val = t.val * 512 + (x 0).val) (hk1 : (k 1).val = (x 1).val) :
    (iblk0 V c 0 t : Vec Ideal S512x2048 .f32) x = (V c main_v0 : S8192x2048.Idx → EReal) k := by
  obtain ⟨e0, e1, -⟩ := idx_facts0 t
  unfold iblk0
  rw [View.read_apply]
  show V c main_v0 _ = V c main_v0 _
  congr 1
  funext a; apply Fin.ext
  match a with
  | ⟨0, _⟩ => show win0_0.index t (0 : Fin 2) * 512 + 1 * (x 0).val = (k 0).val; rw [e0, hk0]; omega
  | ⟨1, _⟩ => show win0_0.index t (1 : Fin 2) * 2048 + 1 * (x 1).val = (k 1).val; rw [e1, hk1]; omega

/-- The staged weight at any point is the whole weight. -/
theorem iblk0_1_apply (c : Dev nD) (t : Fin cfg0.N) (x : S2048x2048.Idx) :
    (iblk0 V c 1 t : Vec Ideal S2048x2048 .bf16) x = (V c main_v1 : S2048x2048.Idx → EReal) x := by
  obtain ⟨-, -, e2, e3, -⟩ := idx_facts0 t
  unfold iblk0
  rw [View.read_apply]
  show V c main_v1 _ = V c main_v1 _
  congr 1
  funext a; apply Fin.ext
  match a with
  | ⟨0, _⟩ => show win0_1.index t (0 : Fin 2) * 2048 + 1 * (x 0).val = (x 0).val; rw [e2]; omega
  | ⟨1, _⟩ => show win0_1.index t (1 : Fin 2) * 2048 + 1 * (x 1).val = (x 1).val; rw [e3]; omega

/-- What point t writes back is block t of the whole-array function. -/
theorem flushed0 (c : Dev nD) (t : Fin cfg0.N) :
    (dat0 (F := Ideal) V c).flushed 2 t = ((cfg0.win 2).blk t).view.read (Elt Ideal) (Cert.Attn.P2fm (V c main_v0) (V c main_v1)) := by
  show (cfg0.win 2).cut (grid0.coords t) ((dat0 V c).after 2 t) = _
  rw [after0_2]
  unfold out0_2
  rw [View.canon_unit_zero rows_hz]
  simp only [View.ld_unit_zero (S := S512x2048) rows_hz, View.ld_unit_zero (S := S2048x2048) rows_hz]
  funext j
  obtain ⟨p, q, rfl⟩ : ∃ (p : Fin 512) (q : Fin 2048), j = ix2 p q := ⟨j 0, j 1, eq_ix2 j⟩
  refine (pay0_apply (iblk0 V c 0 t) (iblk0 V c 1 t) p q).trans ?_
  show _ = Cert.Attn.P2fm (V c main_v0) (V c main_v1) (((cfg0.win 2).blk t).view.emb (ix2 p q))
  obtain ⟨-, -, -, -, e4, e5⟩ := idx_facts0 t
  unfold Cert.Attn.P2fm Cert.Attn.rowsTimes
  congr 1
  refine Finset.sum_congr rfl fun k _ => ?_
  congr 1
  · refine iblk0_0_apply V c t (ix2 p k) _ ?_ rfl
    show win0_2.index t (0 : Fin 2) * 512 + 1 * p.val = t.val * 512 + p.val
    rw [e4]; omega
  · refine (iblk0_1_apply V c t (ix2 k q)).trans ?_
    congr 1
    funext a; apply Fin.ext
    match a with
    | ⟨0, _⟩ => rfl
    | ⟨1, _⟩ => show q.val = win0_2.index t (1 : Fin 2) * 2048 + 1 * q.val; rw [e5]; omega

/-- An index of the array is in point t's block iff each coordinate is in the block's range on its axis. -/
theorem mem_blk0 (t : Fin cfg0.N) (i : S8192x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v5).slice (win0_2.rect t)).set ↔ _
  rw [View.set_slice_whole, Rect.mem_set_unit]
  exact Iff.rfl

/-- Every row lies in the block of the point numbered by its quotient by 512. -/
theorem cover0 (i : S8192x2048.Idx) : ∃ t : Fin cfg0.N, (cfg0.win 2).flush t = true ∧ i ∈ ((cfg0.win 2).blk t).view.set := by
  have hi0 : (i 0).val < 8192 := (i 0).isLt
  have hi1 : (i 1).val < 2048 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 512 ≤ (i 0).val ∧ (i 0).val < win0_2.index t (0 : Fin 2) * 512 + 512
    rw [e4, ht]; omega
  | ⟨1, _⟩ =>
    show win0_2.index t (1 : Fin 2) * 2048 ≤ (i 1).val ∧ (i 1).val < win0_2.index t (1 : Fin 2) * 2048 + 2048
    rw [e5]; omega

/-- Region 0 leaves φ(X · W) in its output array. -/
theorem region0 (c : Dev nD) : (Gen.dat0 (F := Ideal) V c).arrAt 2 cfg0.N = Cert.Attn.P2fm (V c main_v0) (V c main_v1) :=
  (dat0 V c).arrAt_eq_of_cover 2 _ (fun t _ => flushed0 V c t) cover0

/-! ## Region 1 -/

/-- The block's arithmetic at entry (p, q): the feature map of the row-by-column sum. -/
theorem pay1_apply (x0 : Vec Ideal S512x2048 .f32) (x1 : Vec Ideal S2048x2048 .bf16) (p : Fin 512) (q : Fin 2048) :
    k1_pay1 (F := Ideal) x0 x1 (ix2 p q) = Cert.Attn.fm (∑ k : Fin 2048, x0 (ix2 p k) * x1 (ix2 k q)) := by
  unfold k1_pay1
  simp only [shapeCast_self]
  rw [truncf_apply, select_apply, cmpf_apply, addf_apply, mulf_apply, broadcast_apply, broadcast_apply, broadcast_apply,
    rows_exp_apply, mulf_apply, broadcast_apply, rows_mm_apply]
  simp only [truncf_apply]
  exact rows_fm_kernel _

/-- The index maps over the grid: the row blocks move with the point, the weight stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The staged row block at point t is rows 512 t … 512 t + 511 of the array. -/
theorem iblk1_0_apply (c : Dev nD) (t : Fin cfg1.N) (x : S512x2048.Idx) (k : S8192x2048.Idx)
    (hk0 : (k 0).val = t.val * 512 + (x 0).val) (hk1 : (k 1).val = (x 1).val) :
    (iblk1 V c 0 t : Vec Ideal S512x2048 .f32) x = (V c main_v0 : S8192x2048.Idx → EReal) k := by
  obtain ⟨e0, e1, -⟩ := idx_facts1 t
  unfold iblk1
  rw [View.read_apply]
  show V c main_v0 _ = V c main_v0 _
  congr 1
  funext a; apply Fin.ext
  match a with
  | ⟨0, _⟩ => show win1_0.index t (0 : Fin 2) * 512 + 1 * (x 0).val = (k 0).val; rw [e0, hk0]; omega
  | ⟨1, _⟩ => show win1_0.index t (1 : Fin 2) * 2048 + 1 * (x 1).val = (k 1).val; rw [e1, hk1]; omega

/-- The staged weight at any point is the whole weight. -/
theorem iblk1_1_apply (c : Dev nD) (t : Fin cfg1.N) (x : S2048x2048.Idx) :
    (iblk1 V c 1 t : Vec Ideal S2048x2048 .bf16) x = (V c main_v2 : S2048x2048.Idx → EReal) x := by
  obtain ⟨-, -, e2, e3, -⟩ := idx_facts1 t
  unfold iblk1
  rw [View.read_apply]
  show V c main_v2 _ = V c main_v2 _
  congr 1
  funext a; apply Fin.ext
  match a with
  | ⟨0, _⟩ => show win1_1.index t (0 : Fin 2) * 2048 + 1 * (x 0).val = (x 0).val; rw [e2]; omega
  | ⟨1, _⟩ => show win1_1.index t (1 : Fin 2) * 2048 + 1 * (x 1).val = (x 1).val; rw [e3]; omega

/-- What point t writes back is block t of the whole-array function. -/
theorem flushed1 (c : Dev nD) (t : Fin cfg1.N) :
    (dat1 (F := Ideal) V c).flushed 2 t = ((cfg1.win 2).blk t).view.read (Elt Ideal) (Cert.Attn.P2fm (V c main_v0) (V c main_v2)) := by
  show (cfg1.win 2).cut (grid1.coords t) ((dat1 V c).after 2 t) = _
  rw [after1_2]
  unfold out1_2
  rw [View.canon_unit_zero rows_hz]
  simp only [View.ld_unit_zero (S := S512x2048) rows_hz, View.ld_unit_zero (S := S2048x2048) rows_hz]
  funext j
  obtain ⟨p, q, rfl⟩ : ∃ (p : Fin 512) (q : Fin 2048), j = ix2 p q := ⟨j 0, j 1, eq_ix2 j⟩
  refine (pay1_apply (iblk1 V c 0 t) (iblk1 V c 1 t) p q).trans ?_
  show _ = Cert.Attn.P2fm (V c main_v0) (V c main_v2) (((cfg1.win 2).blk t).view.emb (ix2 p q))
  obtain ⟨-, -, -, -, e4, e5⟩ := idx_facts1 t
  unfold Cert.Attn.P2fm Cert.Attn.rowsTimes
  congr 1
  refine Finset.sum_congr rfl fun k _ => ?_
  congr 1
  · refine iblk1_0_apply V c t (ix2 p k) _ ?_ rfl
    show win1_2.index t (0 : Fin 2) * 512 + 1 * p.val = t.val * 512 + p.val
    rw [e4]; omega
  · refine (iblk1_1_apply V c t (ix2 k q)).trans ?_
    congr 1
    funext a; apply Fin.ext
    match a with
    | ⟨0, _⟩ => rfl
    | ⟨1, _⟩ => show q.val = win1_2.index t (1 : Fin 2) * 2048 + 1 * q.val; rw [e5]; omega

/-- An index of the array is in point t's block iff each coordinate is in the block's range on its axis. -/
theorem mem_blk1 (t : Fin cfg1.N) (i : S8192x2048.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v6).slice (win1_2.rect t)).set ↔ _
  rw [View.set_slice_whole, Rect.mem_set_unit]
  exact Iff.rfl

/-- Every row lies in the block of the point numbered by its quotient by 512. -/
theorem cover1 (i : S8192x2048.Idx) : ∃ t : Fin cfg1.N, (cfg1.win 2).flush t = true ∧ i ∈ ((cfg1.win 2).blk t).view.set := by
  have hi0 : (i 0).val < 8192 := (i 0).isLt
  have hi1 : (i 1).val < 2048 := (i 1).isLt
  have hN : cfg1.N = 16 := N_1
  obtain ⟨t, ht⟩ : ∃ t : Fin cfg1.N, t.val = (i 0).val / 512 := ⟨⟨(i 0).val / 512, by rw [hN]; omega⟩, rfl⟩
  obtain ⟨-, -, -, -, e4, e5⟩ := idx_facts1 t
  refine ⟨t, flush1_2 t, ?_⟩
  rw [mem_blk1]
  intro a
  match a with
  | ⟨0, _⟩ =>
    show win1_2.index t (0 : Fin 2) * 512 ≤ (i 0).val ∧ (i 0).val < win1_2.index t (0 : Fin 2) * 512 + 512
    rw [e4, ht]; omega
  | ⟨1, _⟩ =>
    show win1_2.index t (1 : Fin 2) * 2048 ≤ (i 1).val ∧ (i 1).val < win1_2.index t (1 : Fin 2) * 2048 + 2048
    rw [e5]; omega

/-- Region 1 leaves φ(X · W) in its output array. -/
theorem region1 (c : Dev nD) : (Gen.dat1 (F := Ideal) V c).arrAt 2 cfg1.N = Cert.Attn.P2fm (V c main_v0) (V c main_v2) :=
  (dat1 V c).arrAt_eq_of_cover 2 _ (fun t _ => flushed1 V c t) cover1

/-! ## Region 2 -/

/-- The block's arithmetic at entry (p, q): the row-by-column sum. -/
theorem pay2_apply (x0 : Vec Ideal S512x2048 .f32) (x1 : Vec Ideal S2048x2048 .bf16) (p : Fin 512) (q : Fin 2048) :
    k2_pay1 (F := Ideal) x0 x1 (ix2 p q) = ∑ k : Fin 2048, x0 (ix2 p k) * x1 (ix2 k q) := by
  unfold k2_pay1
  simp only [shapeCast_self]
  rw [truncf_apply, rows_mm_apply]
  simp only [truncf_apply]

/-- The index maps over the grid: the row blocks move with the point, the weight stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The staged row block at point t is rows 512 t … 512 t + 511 of the array. -/
theorem iblk2_0_apply (c : Dev nD) (t : Fin cfg2.N) (x : S512x2048.Idx) (k : S8192x2048.Idx)
    (hk0 : (k 0).val = t.val * 512 + (x 0).val) (hk1 : (k 1).val = (x 1).val) :
    (iblk2 V c 0 t : Vec Ideal S512x2048 .f32) x = (V c main_v0 : S8192x2048.Idx → EReal) k := by
  obtain ⟨e0, e1, -⟩ := idx_facts2 t
  unfold iblk2
  rw [View.read_apply]
  show V c main_v0 _ = V c main_v0 _
  congr 1
  funext a; apply Fin.ext
  match a with
  | ⟨0, _⟩ => show win2_0.index t (0 : Fin 2) * 512 + 1 * (x 0).val = (k 0).val; rw [e0, hk0]; omega
  | ⟨1, _⟩ => show win2_0.index t (1 : Fin 2) * 2048 + 1 * (x 1).val = (k 1).val; rw [e1, hk1]; omega

/-- The staged weight at any point is the whole weight. -/
theorem iblk2_1_apply (c : Dev nD) (t : Fin cfg2.N) (x : S2048x2048.Idx) :
    (iblk2 V c 1 t : Vec Ideal S2048x2048 .bf16) x = (V c main_v3 : S2048x2048.Idx → EReal) x := by
  obtain ⟨-, -, e2, e3, -⟩ := idx_facts2 t
  unfold iblk2
  rw [View.read_apply]
  show V c main_v3 _ = V c main_v3 _
  congr 1
  funext a; apply Fin.ext
  match a with
  | ⟨0, _⟩ => show win2_1.index t (0 : Fin 2) * 2048 + 1 * (x 0).val = (x 0).val; rw [e2]; omega
  | ⟨1, _⟩ => show win2_1.index t (1 : Fin 2) * 2048 + 1 * (x 1).val = (x 1).val; rw [e3]; omega

/-- What point t writes back is block t of the whole-array function. -/
theorem flushed2 (c : Dev nD) (t : Fin cfg2.N) :
    (dat2 (F := Ideal) V c).flushed 2 t = ((cfg2.win 2).blk t).view.read (Elt Ideal) (Cert.Attn.P2 (V c main_v0) (V c main_v3)) := by
  show (cfg2.win 2).cut (grid2.coords t) ((dat2 V c).after 2 t) = _
  rw [after2_2]
  unfold out2_2
  rw [View.canon_unit_zero rows_hz]
  simp only [View.ld_unit_zero (S := S512x2048) rows_hz, View.ld_unit_zero (S := S2048x2048) rows_hz]
  funext j
  obtain ⟨p, q, rfl⟩ : ∃ (p : Fin 512) (q : Fin 2048), j = ix2 p q := ⟨j 0, j 1, eq_ix2 j⟩
  refine (pay2_apply (iblk2 V c 0 t) (iblk2 V c 1 t) p q).trans ?_
  show _ = Cert.Attn.P2 (V c main_v0) (V c main_v3) (((cfg2.win 2).blk t).view.emb (ix2 p q))
  obtain ⟨-, -, -, -, e4, e5⟩ := idx_facts2 t
  unfold Cert.Attn.P2 Cert.Attn.rowsTimes
  refine Finset.sum_congr rfl fun k _ => ?_
  congr 1
  · refine iblk2_0_apply V c t (ix2 p k) _ ?_ rfl
    show win2_2.index t (0 : Fin 2) * 512 + 1 * p.val = t.val * 512 + p.val
    rw [e4]; omega
  · refine (iblk2_1_apply V c t (ix2 k q)).trans ?_
    congr 1
    funext a; apply Fin.ext
    match a with
    | ⟨0, _⟩ => rfl
    | ⟨1, _⟩ => show q.val = win2_2.index t (1 : Fin 2) * 2048 + 1 * q.val; rw [e5]; omega

/-- An index of the array is in point t's block iff each coordinate is in the block's range on its axis. -/
theorem mem_blk2 (t : Fin cfg2.N) (i : S8192x2048.Idx) :
    i ∈ ((cfg2.win 2).blk t).view.set ↔ ∀ a : Fin 2, win2_2.index t a * S512x2048.size a ≤ (i a).val ∧ (i a).val < win2_2.index t a * S512x2048.size a + S512x2048.size a := by
  show i ∈ ((View.whole main_v7).slice (win2_2.rect t)).set ↔ _
  rw [View.set_slice_whole, Rect.mem_set_unit]
  exact Iff.rfl

/-- Every row lies in the block of the point numbered by its quotient by 512. -/
theorem cover2 (i : S8192x2048.Idx) : ∃ t : Fin cfg2.N, (cfg2.win 2).flush t = true ∧ i ∈ ((cfg2.win 2).blk t).view.set := by
  have hi0 : (i 0).val < 8192 := (i 0).isLt
  have hi1 : (i 1).val < 2048 := (i 1).isLt
  have hN : cfg2.N = 16 := N_2
  obtain ⟨t, ht⟩ : ∃ t : Fin cfg2.N, t.val = (i 0).val / 512 := ⟨⟨(i 0).val / 512, by rw [hN]; omega⟩, rfl⟩
  obtain ⟨-, -, -, -, e4, e5⟩ := idx_facts2 t
  refine ⟨t, flush2_2 t, ?_⟩
  rw [mem_blk2]
  intro a
  match a with
  | ⟨0, _⟩ =>
    show win2_2.index t (0 : Fin 2) * 512 ≤ (i 0).val ∧ (i 0).val < win2_2.index t (0 : Fin 2) * 512 + 512
    rw [e4, ht]; omega
  | ⟨1, _⟩ =>
    show win2_2.index t (1 : Fin 2) * 2048 ≤ (i 1).val ∧ (i 1).val < win2_2.index t (1 : Fin 2) * 2048 + 2048
    rw [e5]; omega

/-- Region 2 leaves X · W in its output array. -/
theorem region2 (c : Dev nD) : (Gen.dat2 (F := Ideal) V c).arrAt 2 cfg2.N = Cert.Attn.P2 (V c main_v0) (V c main_v3) :=
  (dat2 V c).arrAt_eq_of_cover 2 _ (fun t _ => flushed2 V c t) cover2

/-! ## Region 4 -/

/-- The block's arithmetic at entry (p, q): tanh of the row-by-column sum plus the bias row's entry q. -/
theorem pay4_apply (x0 : Vec Ideal S512x2048 .bf16) (x1 : Vec Ideal S2048x2048 .bf16) (x2 : Vec Ideal S1x2048 .f32)
    (p : Fin 512) (q : Fin 2048) :
    k4_pay1 (F := Ideal) x0 x1 x2 (ix2 p q)
      = Ideal.tanh ((∑ k : Fin 2048, x0 (ix2 p k) * x1 (ix2 k q)) + x2 (ix2 (0 : Fin 1) q)) := by
  unfold k4_pay1
  simp only [shapeCast_self]
  rw [truncf_apply, rows_tanh_apply, addf_apply, rows_mm_apply, broadcastTo_1b_ab_apply]

/-- The index maps over the grid: the row blocks move with the point, the weight and the bias row stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The staged row block at point t is rows 512 t … 512 t + 511 of the array. -/
theorem iblk4_0_apply (c : Dev nD) (t : Fin cfg4.N) (x : S512x2048.Idx) (k : S8192x2048.Idx)
    (hk0 : (k 0).val = t.val * 512 + (x 0).val) (hk1 : (k 1).val = (x 1).val) :
    (iblk4 V c 0 t : Vec Ideal S512x2048 .bf16) x = (V c main_v7 : S8192x2048.Idx → EReal) k := by
  obtain ⟨e0, e1, -⟩ := idx_facts4 t
  unfold iblk4
  rw [View.read_apply]
  show V c main_v7 _ = V c main_v7 _
  congr 1
  funext a; apply Fin.ext
  match a with
  | ⟨0, _⟩ => show win4_0.index t (0 : Fin 2) * 512 + 1 * (x 0).val = (k 0).val; rw [e0, hk0]; omega
  | ⟨1, _⟩ => show win4_0.index t (1 : Fin 2) * 2048 + 1 * (x 1).val = (k 1).val; rw [e1, hk1]; omega

/-- The staged weight at any point is the whole weight. -/
theorem iblk4_1_apply (c : Dev nD) (t : Fin cfg4.N) (x : S2048x2048.Idx) :
    (iblk4 V c 1 t : Vec Ideal S2048x2048 .bf16) x = (V c main_v4 : S2048x2048.Idx → EReal) x := by
  obtain ⟨-, -, e2, e3, -⟩ := idx_facts4 t
  unfold iblk4
  rw [View.read_apply]
  show V c main_v4 _ = V c main_v4 _
  congr 1
  funext a; apply Fin.ext
  match a with
  | ⟨0, _⟩ => show win4_1.index t (0 : Fin 2) * 2048 + 1 * (x 0).val = (x 0).val; rw [e2]; omega
  | ⟨1, _⟩ => show win4_1.index t (1 : Fin 2) * 2048 + 1 * (x 1).val = (x 1).val; rw [e3]; omega

/-- The staged bias row at any point is the whole row. -/
theorem iblk4_2_apply (c : Dev nD) (t : Fin cfg4.N) (x : S1x2048.Idx) :
    (iblk4 V c 2 t : Vec Ideal S1x2048 .f32) x = (V c main_v12 : S1x2048.Idx → EReal) x := by
  obtain ⟨-, -, -, -, e4, e5, -⟩ := idx_facts4 t
  unfold iblk4
  rw [View.read_apply]
  show V c main_v12 _ = V c main_v12 _
  congr 1
  funext a; apply Fin.ext
  match a with
  | ⟨0, _⟩ => show win4_2.index t (0 : Fin 2) * 1 + 1 * (x 0).val = (x 0).val; rw [e4]; omega
  | ⟨1, _⟩ => show win4_2.index t (1 : Fin 2) * 2048 + 1 * (x 1).val = (x 1).val; rw [e5]; omega

/-- What point t writes back is block t of the whole-array function. -/
theorem flushed4 (c : Dev nD) (t : Fin cfg4.N) :
    (dat4 (F := Ideal) V c).flushed 3 t
      = ((cfg4.win 3).blk t).view.read (Elt Ideal) (Cert.Attn.P2t (V c main_v7) (V c main_v4) (V c main_v12)) := by
  show (cfg4.win 3).cut (grid4.coords t) ((dat4 V c).after 3 t) = _
  rw [after4_3]
  unfold out4_3
  rw [View.canon_unit_zero rows_hz]
  simp only [View.ld_unit_zero (S := S512x2048) rows_hz, View.ld_unit_zero (S := S2048x2048) rows_hz, View.ld_unit_zero (S := S1x2048) rows_hz]
  funext j
  obtain ⟨p, q, rfl⟩ : ∃ (p : Fin 512) (q : Fin 2048), j = ix2 p q := ⟨j 0, j 1, eq_ix2 j⟩
  refine (pay4_apply (iblk4 V c 0 t) (iblk4 V c 1 t) (iblk4 V c 2 t) p q).trans ?_
  show _ = Cert.Attn.P2t (V c main_v7) (V c main_v4) (V c main_v12) (((cfg4.win 3).blk t).view.emb (ix2 p q))
  obtain ⟨-, -, -, -, -, -, e6, e7⟩ := idx_facts4 t
  unfold Cert.Attn.P2t Cert.Attn.rowsTimes
  congr 1
  congr 1
  · refine Finset.sum_congr rfl fun k _ => ?_
    congr 1
    · refine iblk4_0_apply V c t (ix2 p k) _ ?_ rfl
      show win4_3.index t (0 : Fin 2) * 512 + 1 * p.val = t.val * 512 + p.val
      rw [e6]; omega
    · refine (iblk4_1_apply V c t (ix2 k q)).trans ?_
      congr 1
      funext a; apply Fin.ext
      match a with
      | ⟨0, _⟩ => rfl
      | ⟨1, _⟩ => show q.val = win4_3.index t (1 : Fin 2) * 2048 + 1 * q.val; rw [e7]; omega
  · refine (iblk4_2_apply V c t (ix2 (0 : Fin 1) q)).trans ?_
    congr 1
    funext a; apply Fin.ext
    match a with
    | ⟨0, _⟩ => rfl
    | ⟨1, _⟩ => show q.val = win4_3.index t (1 : Fin 2) * 2048 + 1 * q.val; rw [e7]; omega

/-- An index of the array is in point t's block iff each coordinate is in the block's range on its axis. -/
theorem mem_blk4 (t : Fin cfg4.N) (i : S8192x2048.Idx) :
    i ∈ ((cfg4.win 3).blk t).view.set ↔ ∀ a : Fin 2, win4_3.index t a * S512x2048.size a ≤ (i a).val ∧ (i a).val < win4_3.index t a * S512x2048.size a + S512x2048.size a := by
  show i ∈ ((View.whole main_v13).slice (win4_3.rect t)).set ↔ _
  rw [View.set_slice_whole, Rect.mem_set_unit]
  exact Iff.rfl

/-- Every row lies in the block of the point numbered by its quotient by 512. -/
theorem cover4 (i : S8192x2048.Idx) : ∃ t : Fin cfg4.N, (cfg4.win 3).flush t = true ∧ i ∈ ((cfg4.win 3).blk t).view.set := by
  have hi0 : (i 0).val < 8192 := (i 0).isLt
  have hi1 : (i 1).val < 2048 := (i 1).isLt
  have hN : cfg4.N = 16 := N_4
  obtain ⟨t, ht⟩ : ∃ t : Fin cfg4.N, t.val = (i 0).val / 512 := ⟨⟨(i 0).val / 512, by rw [hN]; omega⟩, rfl⟩
  obtain ⟨-, -, -, -, -, -, e6, e7⟩ := idx_facts4 t
  refine ⟨t, flush4_3 t, ?_⟩
  rw [mem_blk4]
  intro a
  match a with
  | ⟨0, _⟩ =>
    show win4_3.index t (0 : Fin 2) * 512 ≤ (i 0).val ∧ (i 0).val < win4_3.index t (0 : Fin 2) * 512 + 512
    rw [e6, ht]; omega
  | ⟨1, _⟩ =>
    show win4_3.index t (1 : Fin 2) * 2048 ≤ (i 1).val ∧ (i 1).val < win4_3.index t (1 : Fin 2) * 2048 + 2048
    rw [e7]; omega

/-- Region 4 leaves tanh(X · W + b) in its output array. -/
theorem region4 (c : Dev nD) :
    (Gen.dat4 (F := Ideal) V c).arrAt 3 cfg4.N = Cert.Attn.P2t (V c main_v7) (V c main_v4) (V c main_v12) :=
  (dat4 V c).arrAt_eq_of_cover 3 _ (fun t _ => flushed4 V c t) cover4

end Cert.KernelIdeal.RegionValue
end
-- ==== Proof.KMem.lean ====
/-
  The memory stage, read as one array.

  Per batch b the stage forms M_b = K_bᵀ · V_b over a grid of points (b, i, j): the point takes the column tile i of
  K_b and the column tile j of V_b, each [2048, 1024] with all of the time axis, contracts the time axis, and writes
  the [1024, 1024] tile (i, j) of M_b. Entry (c, d) of that tile is the sum over time t of K_b (t, c) · V_b (t, d) with
  c, d taken inside their tiles, and the sixteen tiles fill the [4, 2048, 2048] result: the array ends holding the
  function Mem of the two arrays the stage found.
-/
import proofs.«151263_j38036230373788_2_alg».proof.Proof.Gen.KernelIdeal.Frame
import proofs.«151263_j38036230373788_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.RegionValue

open Idealize.ShloMosaic Idealize.ShloMosaic.TcCoe Idealize.SL.Sem
open Idealize.ShloMosaic.Pipeline (Dat)
open Cert.KernelIdeal Cert.KernelIdeal.Gen
open Idealize.ShloMosaic.ValueIdx

/-- The product's dimension numbers: the first axis of both operands contracted. -/
abbrev D3 := dot_S2048x1024_S2048x1024_S1024x1024_0_0_1_1_n_n

/-- Entry (a, d) of the product contracting the FIRST axis of both operands into a zero accumulator:
    the sum over the shared row t of A (t, a) · B (t, d). -/
theorem matmul_tn_zero_apply (A B : FVec Ideal S2048x1024 .bf16) (a d : Fin 1024) :
    matmul D3 none A B (constant S1024x1024 .f32 0x00000000#32) (ix2 a d)
      = ∑ t : Fin 2048, A (ix2 t a) * B (ix2 t d) := by
  refine (Ideal.matmul_constant_zero_apply D3 none A B (ix2 a d)).trans ?_
  rw [← Equiv.sum_comp (contrEquiv1 D3 2048 rfl rfl).symm]
  refine Finset.sum_congr rfl fun t _ => ?_
  have c2 := contrEquiv1_symm_val D3 2048 rfl rfl t
  have l2 : D3.lhsIdx (ix2 a d) ((contrEquiv1 D3 2048 rfl rfl).symm t) = ix2 t a := by
    funext ax; apply Fin.ext
    match ax with
    | ⟨0, _⟩ => simp [DotDims.lhsIdx, D3, dot_S2048x1024_S2048x1024_S1024x1024_0_0_1_1_n_n]; exact c2
    | ⟨1, _⟩ => simp [DotDims.lhsIdx, D3, dot_S2048x1024_S2048x1024_S1024x1024_0_0_1_1_n_n]; rfl
  have r2 : D3.rhsIdx (ix2 a d) ((contrEquiv1 D3 2048 rfl rfl).symm t) = ix2 t d := by
    funext ax; apply Fin.ext
    match ax with
    | ⟨0, _⟩ => simp [DotDims.rhsIdx, D3, dot_S2048x1024_S2048x1024_S1024x1024_0_0_1_1_n_n]; exact c2
    | ⟨1, _⟩ => simp [DotDims.rhsIdx, D3, dot_S2048x1024_S2048x1024_S1024x1024_0_0_1_1_n_n]; rfl
  rw [l2, r2]

/-- The body's result at entry (z, a, d) of its [1, 1024, 1024] block: both operand blocks lose their unit
    axis, the product contracts the time axis, and the unit axis is put back. -/
theorem pay3_apply (x0 x1 : Vec Ideal S1x2048x1024 .bf16) (z : Fin 1) (a d : Fin 1024) :
    k3_pay1 x0 x1 (ix3 z a d) = ∑ t : Fin 2048, x0 (ix3 (0 : Fin 1) t a) * x1 (ix3 (0 : Fin 1) t d) := by
  unfold k3_pay1
  rw [shapeCast_ab_1ab_apply, matmul_tn_zero_apply]
  refine Finset.sum_congr rfl fun t _ => ?_
  rw [shapeCast_1ab_ab_apply, shapeCast_1ab_ab_apply]

variable (V : (c : Dev nD) → (b : Ref sig .tc) → Buf (Elt Ideal) ((c : Thread nD τ).loc b))

/-- The zero offsets, however spelt. -/
theorem hz3 : (![0, 0, 0] : Fin 3 → Nat) = fun _ => 0 := funext fun a => by fin_cases a <;> rfl

/-- The windows' index maps over the 16 grid points (b, i, j): the first operand's block is (b, 0, i), the second's
    (b, 0, j), the result's (b, i, j), each inside its range. -/
theorem idx_facts3 : ∀ t : Fin cfg3.N, win3_0.index t (0 : Fin 3) = win3_2.index t (0 : Fin 3)
    ∧ win3_0.index t (1 : Fin 3) = 0
    ∧ win3_0.index t (2 : Fin 3) = win3_2.index t (1 : Fin 3)
    ∧ win3_1.index t (0 : Fin 3) = win3_2.index t (0 : Fin 3)
    ∧ win3_1.index t (1 : Fin 3) = 0
    ∧ win3_1.index t (2 : Fin 3) = win3_2.index t (2 : Fin 3)
    ∧ win3_2.index t (0 : Fin 3) ≤ 3 ∧ win3_2.index t (1 : Fin 3) ≤ 1 ∧ win3_2.index t (2 : Fin 3) ≤ 1 :=
  (by decide +kernel : ∀ t : Fin grid3.N, _)

/-- Every block (b, i, j) of the result is some point's. -/
theorem idx_onto3 : ∀ (q0 : Fin 4) (q1 : Fin 2) (q2 : Fin 2), ∃ t : Fin cfg3.N, win3_2.index t = ![q0.val, q1.val, q2.val] :=
  (by decide +kernel : ∀ (q0 : Fin 4) (q1 : Fin 2) (q2 : Fin 2), ∃ t : Fin grid3.N, win3_2.index t = ![q0.val, q1.val, q2.val])

/-- The first operand's block at point t, read at x, is the array at block index × block size + x, axis by axis. -/
theorem iblk3_0_apply (c : Dev nD) (t : Fin cfg3.N) (x : S1x2048x1024.Idx) (k : S4x2048x2048.Idx)
    (hk0 : (k 0).val = win3_0.index t (0 : Fin 3) * 1 + (x 0).val)
    (hk1 : (k 1).val = win3_0.index t (1 : Fin 3) * 2048 + (x 1).val)
    (hk2 : (k 2).val = win3_0.index t (2 : Fin 3) * 1024 + (x 2).val) :
    (iblk3 V c 0 t : Vec Ideal S1x2048x1024 .bf16) x = (V c main_v9 : S4x2048x2048.Idx → EReal) k := by
  unfold iblk3
  rw [View.read_apply]
  show V c main_v9 _ = V c main_v9 _
  congr 1
  funext a
  apply Fin.ext
  match a with
  | ⟨0, _⟩ => show win3_0.index t (0 : Fin 3) * 1 + 1 * (x 0).val = (k 0).val; rw [hk0]; omega
  | ⟨1, _⟩ => show win3_0.index t (1 : Fin 3) * 2048 + 1 * (x 1).val = (k 1).val; rw [hk1]; omega
  | ⟨2, _⟩ => show win3_0.index t (2 : Fin 3) * 1024 + 1 * (x 2).val = (k 2).val; rw [hk2]; omega

/-- The second operand's block likewise. -/
theorem iblk3_1_apply (c : Dev nD) (t : Fin cfg3.N) (x : S1x2048x1024.Idx) (k : S4x2048x2048.Idx)
    (hk0 : (k 0).val = win3_1.index t (0 : Fin 3) * 1 + (x 0).val)
    (hk1 : (k 1).val = win3_1.index t (1 : Fin 3) * 2048 + (x 1).val)
    (hk2 : (k 2).val = win3_1.index t (2 : Fin 3) * 1024 + (x 2).val) :
    (iblk3 V c 1 t : Vec Ideal S1x2048x1024 .bf16) x = (V c main_v10 : S4x2048x2048.Idx → EReal) k := by
  unfold iblk3
  rw [View.read_apply]
  show V c main_v10 _ = V c main_v10 _
  congr 1
  funext a
  apply Fin.ext
  match a with
  | ⟨0, _⟩ => show win3_1.index t (0 : Fin 3) * 1 + 1 * (x 0).val = (k 0).val; rw [hk0]; omega
  | ⟨1, _⟩ => show win3_1.index t (1 : Fin 3) * 2048 + 1 * (x 1).val = (k 1).val; rw [hk1]; omega
  | ⟨2, _⟩ => show win3_1.index t (2 : Fin 3) * 1024 + 1 * (x 2).val = (k 2).val; rw [hk2]; omega

/-- WHAT POINT t WRITES BACK is block t of the memory Kᵀ·V of the two arrays the region finds. -/
theorem flushed3_eq (c : Dev nD) (t : Fin cfg3.N) :
    (dat3 (F := Ideal) V c).flushed 2 t = ((cfg3.win 2).blk t).view.read (Elt Ideal) (Cert.Attn.Mem (V c main_v9) (V c main_v10)) := by
  show (cfg3.win 2).cut (grid3.coords t) ((dat3 V c).after 2 t) = _
  rw [after3_2]
  unfold out3_2
  rw [View.canon_unit_zero hz3]
  simp only [View.ld_unit_zero (S := S1x2048x1024) hz3]
  funext j
  obtain ⟨e0, e1, e2, e3, e4, e5, b0, b1, b2⟩ := idx_facts3 t
  have hj0 : (j 0).val < 1 := (j 0).isLt
  have hj1 : (j 1).val < 1024 := (j 1).isLt
  have hj2 : (j 2).val < 1024 := (j 2).isLt
  have ej : (win3 2).xinj (grid3.coords t) j = ix3 (⟨(j 0).val, hj0⟩ : Fin 1) (⟨(j 1).val, hj1⟩ : Fin 1024) (⟨(j 2).val, hj2⟩ : Fin 1024) := by
    funext a; apply Fin.ext
    match a with
    | ⟨0, _⟩ => rfl
    | ⟨1, _⟩ => rfl
    | ⟨2, _⟩ => rfl
  show k3_pay1 (iblk3 V c 0 t) (iblk3 V c 1 t) ((win3 2).xinj (grid3.coords t) j) = _
  rw [ej]
  refine (pay3_apply (iblk3 V c 0 t) (iblk3 V c 1 t) _ _ _).trans ?_
  rw [View.read_apply]
  unfold Cert.Attn.Mem
  refine Finset.sum_congr rfl fun s _ => ?_
  have m0 : ((((View.whole main_v11).slice ((win3 2).rect t)).emb j) 0).val = win3_2.index t (0 : Fin 3) * 1 + 1 * (j 0).val := rfl
  have m1 : ((((View.whole main_v11).slice ((win3 2).rect t)).emb j) 1).val = win3_2.index t (1 : Fin 3) * 1024 + 1 * (j 1).val := rfl
  have m2 : ((((View.whole main_v11).slice ((win3 2).rect t)).emb j) 2).val = win3_2.index t (2 : Fin 3) * 1024 + 1 * (j 2).val := rfl
  refine congrArg₂ (· * ·) (iblk3_0_apply V c t _ _ ?_ ?_ ?_) (iblk3_1_apply V c t _ _ ?_ ?_ ?_)
  · show ((((View.whole main_v11).slice ((win3 2).rect t)).emb j) 0).val = win3_0.index t (0 : Fin 3) * 1 + 0
    rw [m0, e0]; omega
  · show s.val = win3_0.index t (1 : Fin 3) * 2048 + s.val
    rw [e1]; omega
  · show ((((View.whole main_v11).slice ((win3 2).rect t)).emb j) 1).val = win3_0.index t (2 : Fin 3) * 1024 + (j 1).val
    rw [m1, e2]; omega
  · show ((((View.whole main_v11).slice ((win3 2).rect t)).emb j) 0).val = win3_1.index t (0 : Fin 3) * 1 + 0
    rw [m0, e3]; omega
  · show s.val = win3_1.index t (1 : Fin 3) * 2048 + s.val
    rw [e4]; omega
  · show ((((View.whole main_v11).slice ((win3 2).rect t)).emb j) 2).val = win3_1.index t (2 : Fin 3) * 1024 + (j 2).val
    rw [m2, e5]; omega

/-- An index of the array is in point t's block iff each coordinate is in the block's range on its axis. -/
theorem mem_blk3 (t : Fin cfg3.N) (i : S4x2048x2048.Idx) :
    i ∈ ((cfg3.win 2).blk t).view.set ↔ ∀ a : Fin 3, win3_2.index t a * S1x1024x1024.size a ≤ (i a).val ∧ (i a).val < win3_2.index t a * S1x1024x1024.size a + S1x1024x1024.size a := by
  show i ∈ ((View.whole main_v11).slice (win3_2.rect t)).set ↔ _
  rw [View.set_slice_whole, Rect.mem_set_unit]
  exact Iff.rfl

/-- The result's blocks fill the array: index (b, r, d) lies in block (b, r / 1024, d / 1024). -/
theorem cover3 (i : S4x2048x2048.Idx) : ∃ t : Fin cfg3.N, (cfg3.win 2).flush t = true ∧ i ∈ ((cfg3.win 2).blk t).view.set := by
  have hi0 : (i 0).val < 4 := (i 0).isLt
  have hi1 : (i 1).val < 2048 := (i 1).isLt
  have hi2 : (i 2).val < 2048 := (i 2).isLt
  obtain ⟨t, ht⟩ := idx_onto3 ⟨(i 0).val, hi0⟩ ⟨(i 1).val / 1024, by omega⟩ ⟨(i 2).val / 1024, by omega⟩
  have q0 : win3_2.index t (0 : Fin 3) = (i 0).val := congrFun ht 0
  have q1 : win3_2.index t (1 : Fin 3) = (i 1).val / 1024 := congrFun ht 1
  have q2 : win3_2.index t (2 : Fin 3) = (i 2).val / 1024 := congrFun ht 2
  refine ⟨t, flush3_2 t, ?_⟩
  rw [mem_blk3]
  intro a
  match a with
  | ⟨0, _⟩ => show win3_2.index t (0 : Fin 3) * 1 ≤ (i 0).val ∧ (i 0).val < win3_2.index t (0 : Fin 3) * 1 + 1; omega
  | ⟨1, _⟩ => show win3_2.index t (1 : Fin 3) * 1024 ≤ (i 1).val ∧ (i 1).val < win3_2.index t (1 : Fin 3) * 1024 + 1024; omega
  | ⟨2, _⟩ => show win3_2.index t (2 : Fin 3) * 1024 ≤ (i 2).val ∧ (i 2).val < win3_2.index t (2 : Fin 3) * 1024 + 1024; omega

/-- THE MEMORY REGION: after its sixteen points the result array holds, per batch, Kᵀ·V of the two arrays the
    region found. -/
theorem region3 (c : Dev nD) : (Gen.dat3 (F := Ideal) V c).arrAt 2 cfg3.N = Cert.Attn.Mem (V c main_v9) (V c main_v10) :=
  (dat3 V c).arrAt_eq_of_cover 2 (Cert.Attn.Mem (V c main_v9) (V c main_v10)) (fun t _ => flushed3_eq V c t) cover3

end Cert.KernelIdeal.RegionValue

end
-- ==== Proof.KOut.lean ====
/-
  The final stage, read as one array.

  Over a grid of points (b, j, i) — batch, then the CHANNEL tile j, then the TIME tile i — the stage takes rows
  i · 512 … of q_b, rows j · 512 … of k_b (each with all 2048 channels), columns j · 512 … of the memory M_b (all 2048
  rows) and tile (i, j) of the tanh term, and writes tile (i, j) of the result: at (a, d) inside the tile,

      ( ∑ c, q_b (i·512 + a, c) · M_b (c, j·512 + d) + T_b (i·512 + a, j·512 + d) )
        / ( ∑ c, q_b (i·512 + a, c) · k_b (j·512 + d, c) + ε ).

  The denominator contracts the channel axis of BOTH q and k, so it reads k at the ROW the output's column names: time
  and channel extents agree, and the result's own index (b, r, d) serves as (b, d, ·) into k. The sixty-four tiles fill
  the [4, 2048, 2048] result: the array ends holding the function Out of the four arrays the stage found.
-/
import proofs.«151263_j38036230373788_2_alg».proof.Proof.Gen.KernelIdeal.Frame
import proofs.«151263_j38036230373788_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.RegionValue

open Idealize.ShloMosaic Idealize.ShloMosaic.TcCoe Idealize.SL.Sem
open Idealize.ShloMosaic.Pipeline (Dat)
open Cert.KernelIdeal Cert.KernelIdeal.Gen
open Idealize.ShloMosaic.ValueIdx

/-- The two products' dimension numbers: rows × contraction times contraction × columns, and the second axis of both
    operands contracted. -/
abbrev D5p := dot_S512x2048_S2048x512_S512x512_1_0_0_1_n_n
abbrev D5t := dot_S512x2048_S512x2048_S512x512_1_1_0_0_n_n

/-- Entry (a, d) of a [512, 2048] × [2048, 512] product into a zero accumulator: the sum over c of A (a, c) · B (c, d). -/
theorem matmul_nn_zero_apply (A : FVec Ideal S512x2048 .bf16) (B : FVec Ideal S2048x512 .bf16) (a d : Fin 512) :
    matmul D5p none A B (constant S512x512 .f32 0x00000000#32) (ix2 a d)
      = ∑ c : Fin 2048, A (ix2 a c) * B (ix2 c d) := by
  refine (Ideal.matmul_constant_zero_apply D5p none A B (ix2 a d)).trans ?_
  rw [← Equiv.sum_comp (contrEquiv1 D5p 2048 rfl rfl).symm]
  refine Finset.sum_congr rfl fun t _ => ?_
  have c2 := contrEquiv1_symm_val D5p 2048 rfl rfl t
  have l2 : D5p.lhsIdx (ix2 a d) ((contrEquiv1 D5p 2048 rfl rfl).symm t) = ix2 a t := by
    funext ax; apply Fin.ext
    match ax with
    | ⟨0, _⟩ => simp [DotDims.lhsIdx, D5p, dot_S512x2048_S2048x512_S512x512_1_0_0_1_n_n]; rfl
    | ⟨1, _⟩ => simp [DotDims.lhsIdx, D5p, dot_S512x2048_S2048x512_S512x512_1_0_0_1_n_n]; exact c2
  have r2 : D5p.rhsIdx (ix2 a d) ((contrEquiv1 D5p 2048 rfl rfl).symm t) = ix2 t d := by
    funext ax; apply Fin.ext
    match ax with
    | ⟨0, _⟩ => simp [DotDims.rhsIdx, D5p, dot_S512x2048_S2048x512_S512x512_1_0_0_1_n_n]; exact c2
    | ⟨1, _⟩ => simp [DotDims.rhsIdx, D5p, dot_S512x2048_S2048x512_S512x512_1_0_0_1_n_n]; rfl
  rw [l2, r2]

/-- Entry (a, d) of the product contracting the SECOND axis of both [512, 2048] operands into a zero accumulator:
    the sum over c of A (a, c) · B (d, c) — row a of A against row d of B. -/
theorem matmul_nt_zero_apply (A B : FVec Ideal S512x2048 .bf16) (a d : Fin 512) :
    matmul D5t none A B (constant S512x512 .f32 0x00000000#32) (ix2 a d)
      = ∑ c : Fin 2048, A (ix2 a c) * B (ix2 d c) := by
  refine (Ideal.matmul_constant_zero_apply D5t none A B (ix2 a d)).trans ?_
  rw [← Equiv.sum_comp (contrEquiv1 D5t 2048 rfl rfl).symm]
  refine Finset.sum_congr rfl fun t _ => ?_
  have c2 := contrEquiv1_symm_val D5t 2048 rfl rfl t
  have l2 : D5t.lhsIdx (ix2 a d) ((contrEquiv1 D5t 2048 rfl rfl).symm t) = ix2 a t := by
    funext ax; apply Fin.ext
    match ax with
    | ⟨0, _⟩ => simp [DotDims.lhsIdx, D5t, dot_S512x2048_S512x2048_S512x512_1_1_0_0_n_n]; rfl
    | ⟨1, _⟩ => simp [DotDims.lhsIdx, D5t, dot_S512x2048_S512x2048_S512x512_1_1_0_0_n_n]; exact c2
  have r2 : D5t.rhsIdx (ix2 a d) ((contrEquiv1 D5t 2048 rfl rfl).symm t) = ix2 d t := by
    funext ax; apply Fin.ext
    match ax with
    | ⟨0, _⟩ => simp [DotDims.rhsIdx, D5t, dot_S512x2048_S512x2048_S512x512_1_1_0_0_n_n]; rfl
    | ⟨1, _⟩ => simp [DotDims.rhsIdx, D5t, dot_S512x2048_S512x2048_S512x512_1_1_0_0_n_n]; exact c2
  rw [l2, r2]

/-- The body's result at entry (z, a, d) of its [1, 512, 512] block: the numerator is row a of the q block against
    column d of the memory block plus the tanh block's entry, the denominator row a of the q block against ROW d of
    the k block plus ε, and the result their quotient. -/
theorem pay5_apply (x0 x1 : Vec Ideal S1x512x2048 .bf16) (x2 : Vec Ideal S1x2048x512 .f32) (x3 : Vec Ideal S1x512x512 .bf16)
    (z : Fin 1) (a d : Fin 512) :
    k5_pay1 x0 x1 x2 x3 (ix3 z a d)
      = Ideal.div ((∑ c : Fin 2048, x0 (ix3 (0 : Fin 1) a c) * x2 (ix3 (0 : Fin 1) c d)) + x3 (ix3 (0 : Fin 1) a d))
          ((∑ c : Fin 2048, x0 (ix3 (0 : Fin 1) a c) * x1 (ix3 (0 : Fin 1) d c)) + Cert.Attn.eps) := by
  unfold k5_pay1
  rw [shapeCast_ab_1ab_apply, divf_apply, addf_apply, addf_apply, matmul_nn_zero_apply, matmul_nt_zero_apply,
    extf_apply, broadcast_apply, shapeCast_1ab_ab_apply]
  simp only [shapeCast_1ab_ab_apply, truncf_apply]
  rfl

variable (V : (c : Dev nD) → (b : Ref sig .tc) → Buf (Elt Ideal) ((c : Thread nD τ).loc b))

/-- The zero offsets, however spelt. -/
theorem hz5 : (![0, 0, 0] : Fin 3 → Nat) = fun _ => 0 := funext fun a => by fin_cases a <;> rfl

/-- The windows' index maps over the 64 grid points (b, j, i) — channel tile j before time tile i: the q block is
    (b, i, 0), the k block (b, j, 0), the memory block (b, 0, j), the tanh block and the result's (b, i, j), each inside
    its range. -/
theorem idx_facts5 : ∀ t : Fin cfg5.N, win5_0.index t (0 : Fin 3) = win5_4.index t (0 : Fin 3)
    ∧ win5_0.index t (1 : Fin 3) = win5_4.index t (1 : Fin 3)
    ∧ win5_0.index t (2 : Fin 3) = 0
    ∧ win5_1.index t (0 : Fin 3) = win5_4.index t (0 : Fin 3)
    ∧ win5_1.index t (1 : Fin 3) = win5_4.index t (2 : Fin 3)
    ∧ win5_1.index t (2 : Fin 3) = 0
    ∧ win5_2.index t (0 : Fin 3) = win5_4.index t (0 : Fin 3)
    ∧ win5_2.index t (1 : Fin 3) = 0
    ∧ win5_2.index t (2 : Fin 3) = win5_4.index t (2 : Fin 3)
    ∧ win5_3.index t (0 : Fin 3) = win5_4.index t (0 : Fin 3)
    ∧ win5_3.index t (1 : Fin 3) = win5_4.index t (1 : Fin 3)
    ∧ win5_3.index t (2 : Fin 3) = win5_4.index t (2 : Fin 3)
    ∧ win5_4.index t (0 : Fin 3) ≤ 3 ∧ win5_4.index t (1 : Fin 3) ≤ 3 ∧ win5_4.index t (2 : Fin 3) ≤ 3 :=
  (by decide +kernel : ∀ t : Fin grid5.N, _)

/-- Every block (b, i, j) of the result is some point's. -/
theorem idx_onto5 : ∀ (q0 : Fin 4) (q1 : Fin 4) (q2 : Fin 4), ∃ t : Fin cfg5.N, win5_4.index t = ![q0.val, q1.val, q2.val] :=
  (by decide +kernel : ∀ (q0 : Fin 4) (q1 : Fin 4) (q2 : Fin 4), ∃ t : Fin grid5.N, win5_4.index t = ![q0.val, q1.val, q2.val])

/-- The q block at point t, read at x, is the array at block index × block size + x, axis by axis. -/
theorem iblk5_0_apply (c : Dev nD) (t : Fin cfg5.N) (x : S1x512x2048.Idx) (k : S4x2048x2048.Idx)
    (hk0 : (k 0).val = win5_0.index t (0 : Fin 3) * 1 + (x 0).val)
    (hk1 : (k 1).val = win5_0.index t (1 : Fin 3) * 512 + (x 1).val)
    (hk2 : (k 2).val = win5_0.index t (2 : Fin 3) * 2048 + (x 2).val) :
    (iblk5 V c 0 t : S1x512x2048.Idx → EReal) x = (V c main_v8 : S4x2048x2048.Idx → EReal) k := by
  unfold iblk5
  rw [View.read_apply]
  show V c main_v8 _ = V c main_v8 _
  congr 1
  funext a
  apply Fin.ext
  match a with
  | ⟨0, _⟩ => show win5_0.index t (0 : Fin 3) * 1 + 1 * (x 0).val = (k 0).val; rw [hk0]; omega
  | ⟨1, _⟩ => show win5_0.index t (1 : Fin 3) * 512 + 1 * (x 1).val = (k 1).val; rw [hk1]; omega
  | ⟨2, _⟩ => show win5_0.index t (2 : Fin 3) * 2048 + 1 * (x 2).val = (k 2).val; rw [hk2]; omega

/-- The k block likewise. -/
theorem iblk5_1_apply (c : Dev nD) (t : Fin cfg5.N) (x : S1x512x2048.Idx) (k : S4x2048x2048.Idx)
    (hk0 : (k 0).val = win5_1.index t (0 : Fin 3) * 1 + (x 0).val)
    (hk1 : (k 1).val = win5_1.index t (1 : Fin 3) * 512 + (x 1).val)
    (hk2 : (k 2).val = win5_1.index t (2 : Fin 3) * 2048 + (x 2).val) :
    (iblk5 V c 1 t : S1x512x2048.Idx → EReal) x = (V c main_v9 : S4x2048x2048.Idx → EReal) k := by
  unfold iblk5
  rw [View.read_apply]
  show V c main_v9 _ = V c main_v9 _
  congr 1
  funext a
  apply Fin.ext
  match a with
  | ⟨0, _⟩ => show win5_1.index t (0 : Fin 3) * 1 + 1 * (x 0).val = (k 0).val; rw [hk0]; omega
  | ⟨1, _⟩ => show win5_1.index t (1 : Fin 3) * 512 + 1 * (x 1).val = (k 1).val; rw [hk1]; omega
  | ⟨2, _⟩ => show win5_1.index t (2 : Fin 3) * 2048 + 1 * (x 2).val = (k 2).val; rw [hk2]; omega

/-- The memory block likewise. -/
theorem iblk5_2_apply (c : Dev nD) (t : Fin cfg5.N) (x : S1x2048x512.Idx) (k : S4x2048x2048.Idx)
    (hk0 : (k 0).val = win5_2.index t (0 : Fin 3) * 1 + (x 0).val)
    (hk1 : (k 1).val = win5_2.index t (1 : Fin 3) * 2048 + (x 1).val)
    (hk2 : (k 2).val = win5_2.index t (2 : Fin 3) * 512 + (x 2).val) :
    (iblk5 V c 2 t : S1x2048x512.Idx → EReal) x = (V c main_v11 : S4x2048x2048.Idx → EReal) k := by
  unfold iblk5
  rw [View.read_apply]
  show V c main_v11 _ = V c main_v11 _
  congr 1
  funext a
  apply Fin.ext
  match a with
  | ⟨0, _⟩ => show win5_2.index t (0 : Fin 3) * 1 + 1 * (x 0).val = (k 0).val; rw [hk0]; omega
  | ⟨1, _⟩ => show win5_2.index t (1 : Fin 3) * 2048 + 1 * (x 1).val = (k 1).val; rw [hk1]; omega
  | ⟨2, _⟩ => show win5_2.index t (2 : Fin 3) * 512 + 1 * (x 2).val = (k 2).val; rw [hk2]; omega

/-- The tanh block likewise. -/
theorem iblk5_3_apply (c : Dev nD) (t : Fin cfg5.N) (x : S1x512x512.Idx) (k : S4x2048x2048.Idx)
    (hk0 : (k 0).val = win5_3.index t (0 : Fin 3) * 1 + (x 0).val)
    (hk1 : (k 1).val = win5_3.index t (1 : Fin 3) * 512 + (x 1).val)
    (hk2 : (k 2).val = win5_3.index t (2 : Fin 3) * 512 + (x 2).val) :
    (iblk5 V c 3 t : S1x512x512.Idx → EReal) x = (V c main_v14 : S4x2048x2048.Idx → EReal) k := by
  unfold iblk5
  rw [View.read_apply]
  show V c main_v14 _ = V c main_v14 _
  congr 1
  funext a
  apply Fin.ext
  match a with
  | ⟨0, _⟩ => show win5_3.index t (0 : Fin 3) * 1 + 1 * (x 0).val = (k 0).val; rw [hk0]; omega
  | ⟨1, _⟩ => show win5_3.index t (1 : Fin 3) * 512 + 1 * (x 1).val = (k 1).val; rw [hk1]; omega
  | ⟨2, _⟩ => show win5_3.index t (2 : Fin 3) * 512 + 1 * (x 2).val = (k 2).val; rw [hk2]; omega

/-- WHAT POINT t WRITES BACK is block t of the quotient of the four arrays the region finds. -/
theorem flushed5_eq (c : Dev nD) (t : Fin cfg5.N) :
    (dat5 (F := Ideal) V c).flushed 4 t = ((cfg5.win 4).blk t).view.read (Elt Ideal)
      (Cert.Attn.Out (V c main_v8) (V c main_v9) (V c main_v11) (V c main_v14)) := by
  show (cfg5.win 4).cut (grid5.coords t) ((dat5 V c).after 4 t) = _
  rw [after5_4]
  unfold out5_4
  rw [View.canon_unit_zero hz5]
  simp only [View.ld_unit_zero (S := S1x512x2048) hz5, View.ld_unit_zero (S := S1x2048x512) hz5, View.ld_unit_zero (S := S1x512x512) hz5]
  funext j
  obtain ⟨e00, e01, e02, e10, e11, e12, e20, e21, e22, e30, e31, e32, b0, b1, b2⟩ := idx_facts5 t
  have hj0 : (j 0).val < 1 := (j 0).isLt
  have hj1 : (j 1).val < 512 := (j 1).isLt
  have hj2 : (j 2).val < 512 := (j 2).isLt
  have ej : (win5 4).xinj (grid5.coords t) j = ix3 (⟨(j 0).val, hj0⟩ : Fin 1) (⟨(j 1).val, hj1⟩ : Fin 512) (⟨(j 2).val, hj2⟩ : Fin 512) := by
    funext a; apply Fin.ext
    match a with
    | ⟨0, _⟩ => rfl
    | ⟨1, _⟩ => rfl
    | ⟨2, _⟩ => rfl
  show k5_pay1 (iblk5 V c 0 t) (iblk5 V c 1 t) (iblk5 V c 2 t) (iblk5 V c 3 t) ((win5 4).xinj (grid5.coords t) j) = _
  rw [ej]
  refine (pay5_apply (iblk5 V c 0 t) (iblk5 V c 1 t) (iblk5 V c 2 t) (iblk5 V c 3 t) _ _ _).trans ?_
  rw [View.read_apply]
  unfold Cert.Attn.Out
  have m0 : ((((View.whole main_v15).slice ((win5 4).rect t)).emb j) 0).val = win5_4.index t (0 : Fin 3) * 1 + 1 * (j 0).val := rfl
  have m1 : ((((View.whole main_v15).slice ((win5 4).rect t)).emb j) 1).val = win5_4.index t (1 : Fin 3) * 512 + 1 * (j 1).val := rfl
  have m2 : ((((View.whole main_v15).slice ((win5 4).rect t)).emb j) 2).val = win5_4.index t (2 : Fin 3) * 512 + 1 * (j 2).val := rfl
  show Ideal.div _ _ = Ideal.div _ _
  refine congrArg₂ Ideal.div
    (congrArg₂ (· + ·)
      (Finset.sum_congr rfl fun s _ => congrArg₂ (· * ·) (iblk5_0_apply V c t _ _ ?_ ?_ ?_) (iblk5_2_apply V c t _ _ ?_ ?_ ?_))
      (iblk5_3_apply V c t _ _ ?_ ?_ ?_))
    (congrArg₂ (· + ·)
      (Finset.sum_congr rfl fun s _ => congrArg₂ (· * ·) (iblk5_0_apply V c t _ _ ?_ ?_ ?_) (iblk5_1_apply V c t _ _ ?_ ?_ ?_))
      rfl)
  -- the q block in the numerator: (b, i · 512 + a, c)
  · show ((((View.whole main_v15).slice ((win5 4).rect t)).emb j) 0).val = win5_0.index t (0 : Fin 3) * 1 + 0
    rw [m0, e00]; omega
  · show ((((View.whole main_v15).slice ((win5 4).rect t)).emb j) 1).val = win5_0.index t (1 : Fin 3) * 512 + (j 1).val
    rw [m1, e01]; omega
  · show s.val = win5_0.index t (2 : Fin 3) * 2048 + s.val
    rw [e02]; omega
  -- the memory block: (b, c, j · 512 + d)
  · show ((((View.whole main_v15).slice ((win5 4).rect t)).emb j) 0).val = win5_2.index t (0 : Fin 3) * 1 + 0
    rw [m0, e20]; omega
  · show s.val = win5_2.index t (1 : Fin 3) * 2048 + s.val
    rw [e21]; omega
  · show ((((View.whole main_v15).slice ((win5 4).rect t)).emb j) 2).val = win5_2.index t (2 : Fin 3) * 512 + (j 2).val
    rw [m2, e22]; omega
  -- the tanh block: the output's own index
  · show ((((View.whole main_v15).slice ((win5 4).rect t)).emb j) 0).val = win5_3.index t (0 : Fin 3) * 1 + 0
    rw [m0, e30]; omega
  · show ((((View.whole main_v15).slice ((win5 4).rect t)).emb j) 1).val = win5_3.index t (1 : Fin 3) * 512 + (j 1).val
    rw [m1, e31]; omega
  · show ((((View.whole main_v15).slice ((win5 4).rect t)).emb j) 2).val = win5_3.index t (2 : Fin 3) * 512 + (j 2).val
    rw [m2, e32]; omega
  -- the q block in the denominator
  · show ((((View.whole main_v15).slice ((win5 4).rect t)).emb j) 0).val = win5_0.index t (0 : Fin 3) * 1 + 0
    rw [m0, e00]; omega
  · show ((((View.whole main_v15).slice ((win5 4).rect t)).emb j) 1).val = win5_0.index t (1 : Fin 3) * 512 + (j 1).val
    rw [m1, e01]; omega
  · show s.val = win5_0.index t (2 : Fin 3) * 2048 + s.val
    rw [e02]; omega
  -- the k block, read at ROW j · 512 + d: (b, j · 512 + d, c)
  · show ((((View.whole main_v15).slice ((win5 4).rect t)).emb j) 0).val = win5_1.index t (0 : Fin 3) * 1 + 0
    rw [m0, e10]; omega
  · show ((((View.whole main_v15).slice ((win5 4).rect t)).emb j) 2).val = win5_1.index t (1 : Fin 3) * 512 + (j 2).val
    rw [m2, e11]; omega
  · show s.val = win5_1.index t (2 : Fin 3) * 2048 + s.val
    rw [e12]; omega

/-- An index of the array is in point t's block iff each coordinate is in the block's range on its axis. -/
theorem mem_blk5 (t : Fin cfg5.N) (i : S4x2048x2048.Idx) :
    i ∈ ((cfg5.win 4).blk t).view.set ↔ ∀ a : Fin 3, win5_4.index t a * S1x512x512.size a ≤ (i a).val ∧ (i a).val < win5_4.index t a * S1x512x512.size a + S1x512x512.size a := by
  show i ∈ ((View.whole main_v15).slice (win5_4.rect t)).set ↔ _
  rw [View.set_slice_whole, Rect.mem_set_unit]
  exact Iff.rfl

/-- The result's blocks fill the array: index (b, r, d) lies in block (b, r / 512, d / 512). -/
theorem cover5 (i : S4x2048x2048.Idx) : ∃ t : Fin cfg5.N, (cfg5.win 4).flush t = true ∧ i ∈ ((cfg5.win 4).blk t).view.set := by
  have hi0 : (i 0).val < 4 := (i 0).isLt
  have hi1 : (i 1).val < 2048 := (i 1).isLt
  have hi2 : (i 2).val < 2048 := (i 2).isLt
  obtain ⟨t, ht⟩ := idx_onto5 ⟨(i 0).val, hi0⟩ ⟨(i 1).val / 512, by omega⟩ ⟨(i 2).val / 512, by omega⟩
  have q0 : win5_4.index t (0 : Fin 3) = (i 0).val := congrFun ht 0
  have q1 : win5_4.index t (1 : Fin 3) = (i 1).val / 512 := congrFun ht 1
  have q2 : win5_4.index t (2 : Fin 3) = (i 2).val / 512 := congrFun ht 2
  refine ⟨t, flush5_4 t, ?_⟩
  rw [mem_blk5]
  intro a
  match a with
  | ⟨0, _⟩ => show win5_4.index t (0 : Fin 3) * 1 ≤ (i 0).val ∧ (i 0).val < win5_4.index t (0 : Fin 3) * 1 + 1; omega
  | ⟨1, _⟩ => show win5_4.index t (1 : Fin 3) * 512 ≤ (i 1).val ∧ (i 1).val < win5_4.index t (1 : Fin 3) * 512 + 512; omega
  | ⟨2, _⟩ => show win5_4.index t (2 : Fin 3) * 512 ≤ (i 2).val ∧ (i 2).val < win5_4.index t (2 : Fin 3) * 512 + 512; omega

/-- THE FINAL REGION: after its sixty-four points the result array holds the quotient (Q·M + T) / (Q·Kᵀ + ε) of the
    four arrays the region found, entry by entry. -/
theorem region5 (c : Dev nD) : (Gen.dat5 (F := Ideal) V c).arrAt 4 cfg5.N
    = Cert.Attn.Out (V c main_v8) (V c main_v9) (V c main_v11) (V c main_v14) :=
  (dat5 V c).arrAt_eq_of_cover 4 (Cert.Attn.Out (V c main_v8) (V c main_v9) (V c main_v11) (V c main_v14))
    (fun t _ => flushed5_eq V c t) cover5

end Cert.KernelIdeal.RegionValue

end
-- ==== Proof.Chain.lean ====
/-
  The staged program's result buffer, followed boundary by boundary.

  The program alternates stretches of host operations with six pipelined regions. A stretch changes the buffers its
  operations write (here only re-layouts: x flattened to [8192, 2048] rows, the row arrays q, k, v and the tanh term
  unflattened to [4, 2048, 2048], the bias laid out as one row; a change of float format is the identity on extended
  reals) and leaves every other buffer alone. A region changes the arrays of its output windows to what its grid of
  blocks writes, leaves the arrays it only reads as they were, and leaves every other buffer alone. Walking the ten
  boundaries with these three kinds of step, each buffer the next stage reads is named as a function of the six
  argument arrays: regions 0, 1, 2 give q, k, v over the rows; region 3 the memory kᵀ·v per batch; region 4 the tanh
  term; region 5 the quotient. The last line is that the result buffer holds the whole computation G.
-/
import proofs.«151263_j38036230373788_2_alg».proof.Proof.Gen.KernelIdeal.Frame
import proofs.«151263_j38036230373788_2_alg».proof.Proof.Spec
import proofs.«151263_j38036230373788_2_alg».proof.Proof.Layout
import proofs.«151263_j38036230373788_2_alg».proof.Proof.KRows
import proofs.«151263_j38036230373788_2_alg».proof.Proof.KMem
import proofs.«151263_j38036230373788_2_alg».proof.Proof.KOut
import Idealize.ShloMosaic.Lib.Pipeline.Value
import Idealize.ShloMosaic.Lib.StableHlo.Run
import Idealize.ShloMosaic.Lib.Tactic

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## Names for the stages' values, as functions of the six argument arrays -/

/-- x with its first two axes flattened. -/
abbrev X (c : Dev nD) : Cert.Attn.R2.Idx → EReal := Cert.Attn.toRows (m ((c : Thread nD τ).loc main_arg0))
/-- q, k and v over the flattened rows, and the tanh term. -/
abbrev Qs (c : Dev nD) : Cert.Attn.R2.Idx → EReal := Cert.Attn.P2fm (X m c) (m ((c : Thread nD τ).loc main_arg1))
abbrev Ks (c : Dev nD) : Cert.Attn.R2.Idx → EReal := Cert.Attn.P2fm (X m c) (m ((c : Thread nD τ).loc main_arg2))
abbrev Vs (c : Dev nD) : Cert.Attn.R2.Idx → EReal := Cert.Attn.P2 (X m c) (m ((c : Thread nD τ).loc main_arg3))
abbrev Ts (c : Dev nD) : Cert.Attn.R2.Idx → EReal := Cert.Attn.P2t (Vs m c) (m ((c : Thread nD τ).loc main_arg4)) (Cert.Attn.rowVec (m ((c : Thread nD τ).loc main_arg5)))

/-- A stretch of host operations leaves a buffer none of them writes as it was. -/
macro "host_kept" : tactic => `(tactic|
  exact StableHlo.after_of_forall_not_mem _ _ (List.forall_iff_forall_mem.mp (by
    simp only [hostOps0, hostOps3, hostOps4, hostOps5, List.Forall, StableHlo.unary_writes, StableHlo.reshape_writes, Finset.mem_singleton]
    repeat' apply And.intro
    all_goals exact StableHlo.devRef_ne_of_ne (by decide))))

/-! ## After the first stretch: x flattened, the four weights as given (a change of float format is the identity) -/

theorem w1_v0 (c : Dev nD) : (W1 m ρ c (Proc.devRef .tc main_v0) : Cert.Attn.R2.Idx → EReal) = X m c := by
  have e : (W1 m ρ c (Proc.devRef .tc main_v0) : Cert.Attn.R2.Idx → EReal) = shapeCast S8192x2048 (m ((c : Thread nD τ).loc main_arg0)) shapeCasts_S4x2048x2048_S8192x2048 := by
    dsimp only [W1, hostOps0]; after_results; rfl
  rw [e]; exact Cert.Attn.shapeCast_toRows _ _
theorem w1_v1 (c : Dev nD) : (W1 m ρ c (Proc.devRef .tc main_v1) : Cert.Attn.M2.Idx → EReal) = (m ((c : Thread nD τ).loc main_arg1)) := by
  dsimp only [W1, hostOps0]; after_results; rfl
theorem w1_v2 (c : Dev nD) : (W1 m ρ c (Proc.devRef .tc main_v2) : Cert.Attn.M2.Idx → EReal) = (m ((c : Thread nD τ).loc main_arg2)) := by
  dsimp only [W1, hostOps0]; after_results; rfl
theorem w1_v3 (c : Dev nD) : (W1 m ρ c (Proc.devRef .tc main_v3) : Cert.Attn.M2.Idx → EReal) = (m ((c : Thread nD τ).loc main_arg3)) := by
  dsimp only [W1, hostOps0]; after_results; rfl
theorem w1_v4 (c : Dev nD) : (W1 m ρ c (Proc.devRef .tc main_v4) : Cert.Attn.M2.Idx → EReal) = (m ((c : Thread nD τ).loc main_arg4)) := by
  dsimp only [W1, hostOps0]; after_results; rfl
theorem w1_arg5 (c : Dev nD) : W1 m ρ c (Proc.devRef .tc main_arg5) = (m ((c : Thread nD τ).loc main_arg5)) := by
  show StableHlo.after hostOps0 (W0 m ρ c) (Proc.devRef .tc main_arg5) = W0 m ρ c (Proc.devRef .tc main_arg5)
  host_kept

/-! ## Region 0 writes q over the rows; what it only reads, or does not touch, stays -/

theorem w2_v5 (c : Dev nD) : (W2 m ρ c (Proc.devRef .tc main_v5) : Cert.Attn.R2.Idx → EReal) = Qs m c :=
  (W2_arr m ρ c 2).trans ((RegionValue.region0 (V1 m ρ) c).trans (congrArg₂ Cert.Attn.P2fm (w1_v0 m ρ c) (w1_v1 m ρ c)))
theorem w2_v0 (c : Dev nD) : (W2 m ρ c (Proc.devRef .tc main_v0) : Cert.Attn.R2.Idx → EReal) = X m c :=
  (W2_arr m ρ c 0).trans ((((dat0 (V1 m ρ) c).arrAt_in 0 rfl cfg0.N).trans (A_eq0 (V1 m ρ) c 0)).trans (w1_v0 m ρ c))
theorem w2_v2 (c : Dev nD) : (W2 m ρ c (Proc.devRef .tc main_v2) : Cert.Attn.M2.Idx → EReal) = (m ((c : Thread nD τ).loc main_arg2)) :=
  (W2_of_ne m ρ c main_v2 (by decide)).trans (w1_v2 m ρ c)
theorem w2_v3 (c : Dev nD) : (W2 m ρ c (Proc.devRef .tc main_v3) : Cert.Attn.M2.Idx → EReal) = (m ((c : Thread nD τ).loc main_arg3)) :=
  (W2_of_ne m ρ c main_v3 (by decide)).trans (w1_v3 m ρ c)
theorem w2_v4 (c : Dev nD) : (W2 m ρ c (Proc.devRef .tc main_v4) : Cert.Attn.M2.Idx → EReal) = (m ((c : Thread nD τ).loc main_arg4)) :=
  (W2_of_ne m ρ c main_v4 (by decide)).trans (w1_v4 m ρ c)
theorem w2_arg5 (c : Dev nD) : W2 m ρ c (Proc.devRef .tc main_arg5) = (m ((c : Thread nD τ).loc main_arg5)) :=
  (W2_of_ne m ρ c main_arg5 (by decide)).trans (w1_arg5 m ρ c)

/-! ## Region 1 writes k over the rows -/

theorem w3_v6 (c : Dev nD) : (W3 m ρ c (Proc.devRef .tc main_v6) : Cert.Attn.R2.Idx → EReal) = Ks m c :=
  (W3_arr m ρ c 2).trans ((RegionValue.region1 (V2 m ρ) c).trans (congrArg₂ Cert.Attn.P2fm (w2_v0 m ρ c) (w2_v2 m ρ c)))
theorem w3_v0 (c : Dev nD) : (W3 m ρ c (Proc.devRef .tc main_v0) : Cert.Attn.R2.Idx → EReal) = X m c :=
  (W3_arr m ρ c 0).trans ((((dat1 (V2 m ρ) c).arrAt_in 0 rfl cfg1.N).trans (A_eq1 (V2 m ρ) c 0)).trans (w2_v0 m ρ c))
theorem w3_v3 (c : Dev nD) : (W3 m ρ c (Proc.devRef .tc main_v3) : Cert.Attn.M2.Idx → EReal) = (m ((c : Thread nD τ).loc main_arg3)) :=
  (W3_of_ne m ρ c main_v3 (by decide)).trans (w2_v3 m ρ c)
theorem w3_v4 (c : Dev nD) : (W3 m ρ c (Proc.devRef .tc main_v4) : Cert.Attn.M2.Idx → EReal) = (m ((c : Thread nD τ).loc main_arg4)) :=
  (W3_of_ne m ρ c main_v4 (by decide)).trans (w2_v4 m ρ c)
theorem w3_v5 (c : Dev nD) : (W3 m ρ c (Proc.devRef .tc main_v5) : Cert.Attn.R2.Idx → EReal) = Qs m c :=
  (W3_of_ne m ρ c main_v5 (by decide)).trans (w2_v5 m ρ c)
theorem w3_arg5 (c : Dev nD) : W3 m ρ c (Proc.devRef .tc main_arg5) = (m ((c : Thread nD τ).loc main_arg5)) :=
  (W3_of_ne m ρ c main_arg5 (by decide)).trans (w2_arg5 m ρ c)

/-! ## Region 2 writes v over the rows -/

theorem w4_v7 (c : Dev nD) : (W4 m ρ c (Proc.devRef .tc main_v7) : Cert.Attn.R2.Idx → EReal) = Vs m c :=
  (W4_arr m ρ c 2).trans ((RegionValue.region2 (V3 m ρ) c).trans (congrArg₂ Cert.Attn.P2 (w3_v0 m ρ c) (w3_v3 m ρ c)))
theorem w4_v4 (c : Dev nD) : (W4 m ρ c (Proc.devRef .tc main_v4) : Cert.Attn.M2.Idx → EReal) = (m ((c : Thread nD τ).loc main_arg4)) :=
  (W4_of_ne m ρ c main_v4 (by decide)).trans (w3_v4 m ρ c)
theorem w4_v5 (c : Dev nD) : (W4 m ρ c (Proc.devRef .tc main_v5) : Cert.Attn.R2.Idx → EReal) = Qs m c :=
  (W4_of_ne m ρ c main_v5 (by decide)).trans (w3_v5 m ρ c)
theorem w4_v6 (c : Dev nD) : (W4 m ρ c (Proc.devRef .tc main_v6) : Cert.Attn.R2.Idx → EReal) = Ks m c :=
  (W4_of_ne m ρ c main_v6 (by decide)).trans (w3_v6 m ρ c)
theorem w4_arg5 (c : Dev nD) : W4 m ρ c (Proc.devRef .tc main_arg5) = (m ((c : Thread nD τ).loc main_arg5)) :=
  (W4_of_ne m ρ c main_arg5 (by decide)).trans (w3_arg5 m ρ c)

/-! ## The second stretch unflattens q, k and v -/

theorem w5_v8 (c : Dev nD) : (W5 m ρ c (Proc.devRef .tc main_v8) : Cert.Attn.T3.Idx → EReal) = Cert.Attn.ofRows (Qs m c) := by
  have e : (W5 m ρ c (Proc.devRef .tc main_v8) : Cert.Attn.T3.Idx → EReal) = shapeCast S4x2048x2048 (W4 m ρ c (Proc.devRef .tc main_v5) : Cert.Attn.R2.Idx → EReal) shapeCasts_S8192x2048_S4x2048x2048 := by
    dsimp only [W5, hostOps3]; after_results; rfl
  rw [e, w4_v5]; exact Cert.Attn.shapeCast_ofRows _ _
theorem w5_v9 (c : Dev nD) : (W5 m ρ c (Proc.devRef .tc main_v9) : Cert.Attn.T3.Idx → EReal) = Cert.Attn.ofRows (Ks m c) := by
  have e : (W5 m ρ c (Proc.devRef .tc main_v9) : Cert.Attn.T3.Idx → EReal) = shapeCast S4x2048x2048 (W4 m ρ c (Proc.devRef .tc main_v6) : Cert.Attn.R2.Idx → EReal) shapeCasts_S8192x2048_S4x2048x2048 := by
    dsimp only [W5, hostOps3]; after_results; rfl
  rw [e, w4_v6]; exact Cert.Attn.shapeCast_ofRows _ _
theorem w5_v10 (c : Dev nD) : (W5 m ρ c (Proc.devRef .tc main_v10) : Cert.Attn.T3.Idx → EReal) = Cert.Attn.ofRows (Vs m c) := by
  have e : (W5 m ρ c (Proc.devRef .tc main_v10) : Cert.Attn.T3.Idx → EReal) = shapeCast S4x2048x2048 (W4 m ρ c (Proc.devRef .tc main_v7) : Cert.Attn.R2.Idx → EReal) shapeCasts_S8192x2048_S4x2048x2048 := by
    dsimp only [W5, hostOps3]; after_results; rfl
  rw [e, w4_v7]; exact Cert.Attn.shapeCast_ofRows _ _
theorem w5_v4 (c : Dev nD) : (W5 m ρ c (Proc.devRef .tc main_v4) : Cert.Attn.M2.Idx → EReal) = (m ((c : Thread nD τ).loc main_arg4)) :=
  (show W5 m ρ c (Proc.devRef .tc main_v4) = W4 m ρ c (Proc.devRef .tc main_v4) by host_kept).trans (w4_v4 m ρ c)
theorem w5_v7 (c : Dev nD) : (W5 m ρ c (Proc.devRef .tc main_v7) : Cert.Attn.R2.Idx → EReal) = Vs m c :=
  (show W5 m ρ c (Proc.devRef .tc main_v7) = W4 m ρ c (Proc.devRef .tc main_v7) by host_kept).trans (w4_v7 m ρ c)
theorem w5_arg5 (c : Dev nD) : W5 m ρ c (Proc.devRef .tc main_arg5) = (m ((c : Thread nD τ).loc main_arg5)) :=
  (show W5 m ρ c (Proc.devRef .tc main_arg5) = W4 m ρ c (Proc.devRef .tc main_arg5) by host_kept).trans (w4_arg5 m ρ c)

/-! ## Region 3 writes the memory -/

theorem w6_v11 (c : Dev nD) : (W6 m ρ c (Proc.devRef .tc main_v11) : Cert.Attn.T3.Idx → EReal) = Cert.Attn.Mem (Cert.Attn.ofRows (Ks m c)) (Cert.Attn.ofRows (Vs m c)) :=
  (W6_arr m ρ c 2).trans ((RegionValue.region3 (V5 m ρ) c).trans (congrArg₂ Cert.Attn.Mem (w5_v9 m ρ c) (w5_v10 m ρ c)))
theorem w6_v9 (c : Dev nD) : (W6 m ρ c (Proc.devRef .tc main_v9) : Cert.Attn.T3.Idx → EReal) = Cert.Attn.ofRows (Ks m c) :=
  (W6_arr m ρ c 0).trans ((((dat3 (V5 m ρ) c).arrAt_in 0 rfl cfg3.N).trans (A_eq3 (V5 m ρ) c 0)).trans (w5_v9 m ρ c))
theorem w6_v8 (c : Dev nD) : (W6 m ρ c (Proc.devRef .tc main_v8) : Cert.Attn.T3.Idx → EReal) = Cert.Attn.ofRows (Qs m c) :=
  (W6_of_ne m ρ c main_v8 (by decide)).trans (w5_v8 m ρ c)
theorem w6_v4 (c : Dev nD) : (W6 m ρ c (Proc.devRef .tc main_v4) : Cert.Attn.M2.Idx → EReal) = (m ((c : Thread nD τ).loc main_arg4)) :=
  (W6_of_ne m ρ c main_v4 (by decide)).trans (w5_v4 m ρ c)
theorem w6_v7 (c : Dev nD) : (W6 m ρ c (Proc.devRef .tc main_v7) : Cert.Attn.R2.Idx → EReal) = Vs m c :=
  (W6_of_ne m ρ c main_v7 (by decide)).trans (w5_v7 m ρ c)
theorem w6_arg5 (c : Dev nD) : W6 m ρ c (Proc.devRef .tc main_arg5) = (m ((c : Thread nD τ).loc main_arg5)) :=
  (W6_of_ne m ρ c main_arg5 (by decide)).trans (w5_arg5 m ρ c)

/-! ## The third stretch lays the bias out as one row -/

theorem w7_v12 (c : Dev nD) : (W7 m ρ c (Proc.devRef .tc main_v12) : Cert.Attn.B2.Idx → EReal) = Cert.Attn.rowVec (m ((c : Thread nD τ).loc main_arg5)) := by
  have e : (W7 m ρ c (Proc.devRef .tc main_v12) : Cert.Attn.B2.Idx → EReal) = shapeCast S1x2048 (W6 m ρ c (Proc.devRef .tc main_arg5) : Cert.Attn.B1.Idx → EReal) shapeCasts_S2048_S1x2048 := by
    dsimp only [W7, hostOps4]; after_results; rfl
  rw [e, w6_arg5]; exact Cert.Attn.shapeCast_rowVec _ _
theorem w7_v4 (c : Dev nD) : (W7 m ρ c (Proc.devRef .tc main_v4) : Cert.Attn.M2.Idx → EReal) = (m ((c : Thread nD τ).loc main_arg4)) :=
  (show W7 m ρ c (Proc.devRef .tc main_v4) = W6 m ρ c (Proc.devRef .tc main_v4) by host_kept).trans (w6_v4 m ρ c)
theorem w7_v7 (c : Dev nD) : (W7 m ρ c (Proc.devRef .tc main_v7) : Cert.Attn.R2.Idx → EReal) = Vs m c :=
  (show W7 m ρ c (Proc.devRef .tc main_v7) = W6 m ρ c (Proc.devRef .tc main_v7) by host_kept).trans (w6_v7 m ρ c)
theorem w7_v8 (c : Dev nD) : (W7 m ρ c (Proc.devRef .tc main_v8) : Cert.Attn.T3.Idx → EReal) = Cert.Attn.ofRows (Qs m c) :=
  (show W7 m ρ c (Proc.devRef .tc main_v8) = W6 m ρ c (Proc.devRef .tc main_v8) by host_kept).trans (w6_v8 m ρ c)
theorem w7_v9 (c : Dev nD) : (W7 m ρ c (Proc.devRef .tc main_v9) : Cert.Attn.T3.Idx → EReal) = Cert.Attn.ofRows (Ks m c) :=
  (show W7 m ρ c (Proc.devRef .tc main_v9) = W6 m ρ c (Proc.devRef .tc main_v9) by host_kept).trans (w6_v9 m ρ c)
theorem w7_v11 (c : Dev nD) : (W7 m ρ c (Proc.devRef .tc main_v11) : Cert.Attn.T3.Idx → EReal) = Cert.Attn.Mem (Cert.Attn.ofRows (Ks m c)) (Cert.Attn.ofRows (Vs m c)) :=
  (show W7 m ρ c (Proc.devRef .tc main_v11) = W6 m ρ c (Proc.devRef .tc main_v11) by host_kept).trans (w6_v11 m ρ c)

/-! ## Region 4 writes the tanh term over the rows -/

theorem w8_v13 (c : Dev nD) : (W8 m ρ c (Proc.devRef .tc main_v13) : Cert.Attn.R2.Idx → EReal) = Ts m c :=
  (W8_arr m ρ c 3).trans ((RegionValue.region4 (V7 m ρ) c).trans (by
    rw [show (V7 m ρ c main_v7 : Cert.Attn.R2.Idx → EReal) = Vs m c from w7_v7 m ρ c,
      show (V7 m ρ c main_v4 : Cert.Attn.M2.Idx → EReal) = (m ((c : Thread nD τ).loc main_arg4)) from w7_v4 m ρ c,
      show (V7 m ρ c main_v12 : Cert.Attn.B2.Idx → EReal) = Cert.Attn.rowVec (m ((c : Thread nD τ).loc main_arg5)) from w7_v12 m ρ c]))
theorem w8_v8 (c : Dev nD) : (W8 m ρ c (Proc.devRef .tc main_v8) : Cert.Attn.T3.Idx → EReal) = Cert.Attn.ofRows (Qs m c) :=
  (W8_of_ne m ρ c main_v8 (by decide)).trans (w7_v8 m ρ c)
theorem w8_v9 (c : Dev nD) : (W8 m ρ c (Proc.devRef .tc main_v9) : Cert.Attn.T3.Idx → EReal) = Cert.Attn.ofRows (Ks m c) :=
  (W8_of_ne m ρ c main_v9 (by decide)).trans (w7_v9 m ρ c)
theorem w8_v11 (c : Dev nD) : (W8 m ρ c (Proc.devRef .tc main_v11) : Cert.Attn.T3.Idx → EReal) = Cert.Attn.Mem (Cert.Attn.ofRows (Ks m c)) (Cert.Attn.ofRows (Vs m c)) :=
  (W8_of_ne m ρ c main_v11 (by decide)).trans (w7_v11 m ρ c)

/-! ## The fourth stretch unflattens the tanh term -/

theorem w9_v14 (c : Dev nD) : (W9 m ρ c (Proc.devRef .tc main_v14) : Cert.Attn.T3.Idx → EReal) = Cert.Attn.ofRows (Ts m c) := by
  have e : (W9 m ρ c (Proc.devRef .tc main_v14) : Cert.Attn.T3.Idx → EReal) = shapeCast S4x2048x2048 (W8 m ρ c (Proc.devRef .tc main_v13) : Cert.Attn.R2.Idx → EReal) shapeCasts_S8192x2048_S4x2048x2048 := by
    dsimp only [W9, hostOps5]; after_results; rfl
  rw [e, w8_v13]; exact Cert.Attn.shapeCast_ofRows _ _
theorem w9_v8 (c : Dev nD) : (W9 m ρ c (Proc.devRef .tc main_v8) : Cert.Attn.T3.Idx → EReal) = Cert.Attn.ofRows (Qs m c) :=
  (show W9 m ρ c (Proc.devRef .tc main_v8) = W8 m ρ c (Proc.devRef .tc main_v8) by host_kept).trans (w8_v8 m ρ c)
theorem w9_v9 (c : Dev nD) : (W9 m ρ c (Proc.devRef .tc main_v9) : Cert.Attn.T3.Idx → EReal) = Cert.Attn.ofRows (Ks m c) :=
  (show W9 m ρ c (Proc.devRef .tc main_v9) = W8 m ρ c (Proc.devRef .tc main_v9) by host_kept).trans (w8_v9 m ρ c)
theorem w9_v11 (c : Dev nD) : (W9 m ρ c (Proc.devRef .tc main_v11) : Cert.Attn.T3.Idx → EReal) = Cert.Attn.Mem (Cert.Attn.ofRows (Ks m c)) (Cert.Attn.ofRows (Vs m c)) :=
  (show W9 m ρ c (Proc.devRef .tc main_v11) = W8 m ρ c (Proc.devRef .tc main_v11) by host_kept).trans (w8_v11 m ρ c)

/-! ## Region 5 writes the quotient: the result -/

/-- The result buffer at the last boundary is the whole computation of the six argument arrays. -/
theorem w10_v15 (c : Dev nD) : (W10 m ρ c (Proc.devRef .tc main_v15) : Cert.Attn.T3.Idx → EReal)
    = Cert.Attn.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W10_arr m ρ c 4).trans ((RegionValue.region5 (V9 m ρ) c).trans (by
    rw [show (V9 m ρ c main_v8 : Cert.Attn.T3.Idx → EReal) = Cert.Attn.ofRows (Qs m c) from w9_v8 m ρ c,
      show (V9 m ρ c main_v9 : Cert.Attn.T3.Idx → EReal) = Cert.Attn.ofRows (Ks m c) from w9_v9 m ρ c,
      show (V9 m ρ c main_v11 : Cert.Attn.T3.Idx → EReal) = Cert.Attn.Mem (Cert.Attn.ofRows (Ks m c)) (Cert.Attn.ofRows (Vs m c)) from w9_v11 m ρ c,
      show (V9 m ρ c main_v14 : Cert.Attn.T3.Idx → EReal) = Cert.Attn.ofRows (Ts m c) from w9_v14 m ρ c]
    rfl))

end Cert.KernelIdeal.Chain

end
-- ==== Proof.RefOps.lean ====
/-
  The one-pass program as a straight line. Its entry function calls the outlined elu twice, and elu calls the two
  outlined choices; a call executes the callee's body on the operands, so the entry function is the list of its own
  operations with each callee's operations written in place of the call, over that call's buffers: three projections,
  then per feature map the scale, elu's fifteen operations (the comparison with zero twice, the inner choice that puts
  zero above zero, expm1, the product with one, the outer choice) and the shift by one, then the four batched products,
  the small constant, the bias spread over rows, tanh, two sums and the quotient — fifty-eight operations.
-/
import proofs.«151263_j38036230373788_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, each call replaced by the callee's operations over that call's buffers. -/
abbrev ops : List (HloOp τ sig (Elt F)) :=
  [ StableHlo.binary main_arg0 main_arg1 main_v0 ((fun l r => Host.dotGeneral dot_S4x2048x2048_S2048x2048_S4x2048x2048_2_0_01_1_n_n none l r) : (⟨S4x2048x2048, .f32⟩ : BufTy).Contents (Elt F) → (⟨S2048x2048, .f32⟩ : BufTy).Contents (Elt F) → (⟨S4x2048x2048, .f32⟩ : BufTy).Contents (Elt F)),
    StableHlo.binary main_arg0 main_arg2 main_v1 ((fun l r => Host.dotGeneral dot_S4x2048x2048_S2048x2048_S4x2048x2048_2_0_01_1_n_n none l r) : (⟨S4x2048x2048, .f32⟩ : BufTy).Contents (Elt F) → (⟨S2048x2048, .f32⟩ : BufTy).Contents (Elt F) → (⟨S4x2048x2048, .f32⟩ : BufTy).Contents (Elt F)),
    StableHlo.binary main_arg0 main_arg3 main_v2 ((fun l r => Host.dotGeneral dot_S4x2048x2048_S2048x2048_S4x2048x2048_2_0_01_1_n_n none l r) : (⟨S4x2048x2048, .f32⟩ : BufTy).Contents (Elt F) → (⟨S2048x2048, .f32⟩ : BufTy).Contents (Elt F) → (⟨S4x2048x2048, .f32⟩ : BufTy).Contents (Elt F)),
    StableHlo.nullary main_cst (constant S_ .f32 0x3CB504F3#32),
    StableHlo.unary main_cst main_v3 (broadcastInDim S4x2048x2048 ![] bcast_S_S4x2048x2048 : (⟨S_, .f32⟩ : BufTy).Contents (Elt F) → (⟨S4x2048x2048, .f32⟩ : BufTy).Contents (Elt F)),
    StableHlo.binary main_v0 main_v3 main_v4 (mulf : (⟨S4x2048x2048, .f32⟩ : BufTy).Contents (Elt F) → (⟨S4x2048x2048, .f32⟩ : BufTy).Contents (Elt F) → (⟨S4x2048x2048, .f32⟩ : BufTy).Contents (Elt F)),
    TRef.nullary main_call0.cst (constant S_ .f32 0x00000000#32),
    TRef.unary main_call0.cst main_call0.v0 (broadcastInDim S4x2048x2048 ![] bcast_S_S4x2048x2048),
    TRef.binary (.of main_v4) main_call0.v0 main_call0.v1 (cmpf .ogt),
    TRef.nullary main_call0.cst_0 (constant S_ .f32 0x00000000#32),
    TRef.unary main_call0.cst_0 main_call0.v2 (broadcastInDim S4x2048x2048 ![] bcast_S_S4x2048x2048),
    TRef.binary (.of main_v4) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S4x2048x2048 ![] bcast_S_S4x2048x2048),
    TRef.ternary main_call0.v3 main_call0.call0.v1 (.of main_v4) main_call0.call0.v2 select,
    TRef.unary main_call0.call0.v2 main_call0.v5 Host.expm1,
    TRef.nullary main_call0.cst_2 (constant S_ .f32 0x3F800000#32),
    TRef.unary main_call0.cst_2 main_call0.v6 (broadcastInDim S4x2048x2048 ![] bcast_S_S4x2048x2048),
    TRef.binary main_call0.v6 main_call0.v5 main_call0.v7 mulf,
    TRef.ternary main_call0.v1 (.of main_v4) main_call0.v7 main_call0.call1.v0 select,
    StableHlo.nullary main_cst_0 (constant S_ .f32 0x3F800000#32),
    StableHlo.unary main_cst_0 main_v6 (broadcastInDim S4x2048x2048 ![] bcast_S_S4x2048x2048 : (⟨S_, .f32⟩ : BufTy).Contents (Elt F) → (⟨S4x2048x2048, .f32⟩ : BufTy).Contents (Elt F)),
    StableHlo.binary main_v5 main_v6 main_v7 (addf : (⟨S4x2048x2048, .f32⟩ : BufTy).Contents (Elt F) → (⟨S4x2048x2048, .f32⟩ : BufTy).Contents (Elt F) → (⟨S4x2048x2048, .f32⟩ : BufTy).Contents (Elt F)),
    StableHlo.nullary main_cst_1 (constant S_ .f32 0x3CB504F3#32),
    StableHlo.unary main_cst_1 main_v8 (broadcastInDim S4x2048x2048 ![] bcast_S_S4x2048x2048 : (⟨S_, .f32⟩ : BufTy).Contents (Elt F) → (⟨S4x2048x2048, .f32⟩ : BufTy).Contents (Elt F)),
    StableHlo.binary main_v1 main_v8 main_v9 (mulf : (⟨S4x2048x2048, .f32⟩ : BufTy).Contents (Elt F) → (⟨S4x2048x2048, .f32⟩ : BufTy).Contents (Elt F) → (⟨S4x2048x2048, .f32⟩ : BufTy).Contents (Elt F)),
    TRef.nullary main_call1.cst (constant S_ .f32 0x00000000#32),
    TRef.unary main_call1.cst main_call1.v0 (broadcastInDim S4x2048x2048 ![] bcast_S_S4x2048x2048),
    TRef.binary (.of main_v9) main_call1.v0 main_call1.v1 (cmpf .ogt),
    TRef.nullary main_call1.cst_0 (constant S_ .f32 0x00000000#32),
    TRef.unary main_call1.cst_0 main_call1.v2 (broadcastInDim S4x2048x2048 ![] bcast_S_S4x2048x2048),
    TRef.binary (.of main_v9) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S4x2048x2048 ![] bcast_S_S4x2048x2048),
    TRef.ternary main_call1.v3 main_call1.call0.v1 (.of main_v9) main_call1.call0.v2 select,
    TRef.unary main_call1.call0.v2 main_call1.v5 Host.expm1,
    TRef.nullary main_call1.cst_2 (constant S_ .f32 0x3F800000#32),
    TRef.unary main_call1.cst_2 main_call1.v6 (broadcastInDim S4x2048x2048 ![] bcast_S_S4x2048x2048),
    TRef.binary main_call1.v6 main_call1.v5 main_call1.v7 mulf,
    TRef.ternary main_call1.v1 (.of main_v9) main_call1.v7 main_call1.call1.v0 select,
    StableHlo.nullary main_cst_2 (constant S_ .f32 0x3F800000#32),
    StableHlo.unary main_cst_2 main_v11 (broadcastInDim S4x2048x2048 ![] bcast_S_S4x2048x2048 : (⟨S_, .f32⟩ : BufTy).Contents (Elt F) → (⟨S4x2048x2048, .f32⟩ : BufTy).Contents (Elt F)),
    StableHlo.binary main_v10 main_v11 main_v12 (addf : (⟨S4x2048x2048, .f32⟩ : BufTy).Contents (Elt F) → (⟨S4x2048x2048, .f32⟩ : BufTy).Contents (Elt F) → (⟨S4x2048x2048, .f32⟩ : BufTy).Contents (Elt F)),
    StableHlo.binary main_v12 main_v2 main_v13 ((fun l r => Host.dotGeneral dot_S4x2048x2048_S4x2048x2048_S4x2048x2048_1_1_2_2_0_0 none l r) : (⟨S4x2048x2048, .f32⟩ : BufTy).Contents (Elt F) → (⟨S4x2048x2048, .f32⟩ : BufTy).Contents (Elt F) → (⟨S4x2048x2048, .f32⟩ : BufTy).Contents (Elt F)),
    StableHlo.binary main_v7 main_v12 main_v14 ((fun l r => Host.dotGeneral dot_S4x2048x2048_S4x2048x2048_S4x2048x2048_2_2_1_1_0_0 none l r) : (⟨S4x2048x2048, .f32⟩ : BufTy).Contents (Elt F) → (⟨S4x2048x2048, .f32⟩ : BufTy).Contents (Elt F) → (⟨S4x2048x2048, .f32⟩ : BufTy).Contents (Elt F)),
    StableHlo.nullary main_cst_3 (constant S_ .f32 0x322BCC77#32),
    StableHlo.unary main_cst_3 main_v15 (broadcastInDim S4x2048x2048 ![] bcast_S_S4x2048x2048 : (⟨S_, .f32⟩ : BufTy).Contents (Elt F) → (⟨S4x2048x2048, .f32⟩ : BufTy).Contents (Elt F)),
    StableHlo.binary main_v14 main_v15 main_v16 (addf : (⟨S4x2048x2048, .f32⟩ : BufTy).Contents (Elt F) → (⟨S4x2048x2048, .f32⟩ : BufTy).Contents (Elt F) → (⟨S4x2048x2048, .f32⟩ : BufTy).Contents (Elt F)),
    StableHlo.binary main_v7 main_v13 main_v17 ((fun l r => Host.dotGeneral dot_S4x2048x2048_S4x2048x2048_S4x2048x2048_2_1_1_2_0_0 none l r) : (⟨S4x2048x2048, .f32⟩ : BufTy).Contents (Elt F) → (⟨S4x2048x2048, .f32⟩ : BufTy).Contents (Elt F) → (⟨S4x2048x2048, .f32⟩ : BufTy).Contents (Elt F)),
    StableHlo.binary main_v2 main_arg4 main_v18 ((fun l r => Host.dotGeneral dot_S4x2048x2048_S2048x2048_S4x2048x2048_2_0_01_1_n_n none l r) : (⟨S4x2048x2048, .f32⟩ : BufTy).Contents (Elt F) → (⟨S2048x2048, .f32⟩ : BufTy).Contents (Elt F) → (⟨S4x2048x2048, .f32⟩ : BufTy).Contents (Elt F)),
    StableHlo.unary main_arg5 main_v19 (broadcastInDim S1x1x2048 ![2] bcast_S2048_S1x1x2048_2 : (⟨S2048, .f32⟩ : BufTy).Contents (Elt F) → (⟨S1x1x2048, .f32⟩ : BufTy).Contents (Elt F)),
    StableHlo.unary main_v19 main_v20 (broadcastInDim S4x2048x2048 ![0, 1, 2] bcast_S1x1x2048_S4x2048x2048_0_1_2 : (⟨S1x1x2048, .f32⟩ : BufTy).Contents (Elt F) → (⟨S4x2048x2048, .f32⟩ : BufTy).Contents (Elt F)),
    StableHlo.binary main_v18 main_v20 main_v21 (addf : (⟨S4x2048x2048, .f32⟩ : BufTy).Contents (Elt F) → (⟨S4x2048x2048, .f32⟩ : BufTy).Contents (Elt F) → (⟨S4x2048x2048, .f32⟩ : BufTy).Contents (Elt F)),
    StableHlo.unary main_v21 main_v22 (Host.tanh : (⟨S4x2048x2048, .f32⟩ : BufTy).Contents (Elt F) → (⟨S4x2048x2048, .f32⟩ : BufTy).Contents (Elt F)),
    StableHlo.binary main_v17 main_v22 main_v23 (addf : (⟨S4x2048x2048, .f32⟩ : BufTy).Contents (Elt F) → (⟨S4x2048x2048, .f32⟩ : BufTy).Contents (Elt F) → (⟨S4x2048x2048, .f32⟩ : BufTy).Contents (Elt F)),
    StableHlo.binary main_v23 main_v16 main_v24 (Host.divf : (⟨S4x2048x2048, .f32⟩ : BufTy).Contents (Elt F) → (⟨S4x2048x2048, .f32⟩ : BufTy).Contents (Elt F) → (⟨S4x2048x2048, .f32⟩ : BufTy).Contents (Elt F)) ]

set_option maxRecDepth 4096 in
/-- The entry function is that straight line: with the outlined functions unfolded at their calls, both sides are one
    chain of steps once sequencing is reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the compute core only. -/
theorem ops_sub : (ops : List (HloOp τ sig (Elt F))).Forall fun op => op.bufs ⊆ tcRefs τ sig :=
  ⟨binary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    nullary_bufs_sub .., unary_bufs_sub .., binary_bufs_sub .., binary_bufs_sub .., binary_bufs_sub .., nullary_bufs_sub ..,
    unary_bufs_sub .., binary_bufs_sub .., binary_bufs_sub .., binary_bufs_sub .., unary_bufs_sub .., unary_bufs_sub ..,
    binary_bufs_sub .., unary_bufs_sub .., binary_bufs_sub .., binary_bufs_sub ..⟩

end Cert.ReferenceIdeal.RefRun

end
-- ==== Proof.RefTerm.lean ====
/-
  The one-pass formula as the host program composes it: three projections of x, the feature map elu(· · s) + 1 on two
  of them (elu as "the argument above zero, 1 · expm1 of the argument elsewhere", the inner argument replaced by zero
  above zero), the per-batch memory kᵀ·v, the denominator q·kᵀ + ε, the numerator q·memory + tanh(v·Wo + bo), and
  their quotient — whole-array operations applied to whole arrays, nothing read at an index yet.
-/
import proofs.«151263_j38036230373788_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- A batch of four [2048, 2048] matrices of extended reals. -/
abbrev A3 : Type := FVec Ideal S4x2048x2048 .f32

/-- The constant array of one single-precision pattern. -/
def splat (b : BitVec 32) : A3 :=
  broadcastInDim S4x2048x2048 ![] bcast_S_S4x2048x2048 (constant (F := Ideal) S_ .f32 b)

/-- elu: the argument where it is above zero, and elsewhere 1 · expm1 of it (expm1 taken of zero where the argument
    is above zero, a value the outer choice then discards). -/
def elu (a : A3) : A3 :=
  select (cmpf .ogt a (splat 0x00000000#32)) a
    (mulf (splat 0x3F800000#32)
      (Host.expm1 (select (cmpf .ogt a (splat 0x00000000#32))
        (broadcastInDim S4x2048x2048 ![] bcast_S_S4x2048x2048 (id (constant (F := Ideal) S_ .f32 0x00000000#32))) a)))

/-- x · W over the last axis of x. -/
def projD (x : A3) (W : FVec Ideal S2048x2048 .f32) : A3 :=
  Host.dotGeneral dot_S4x2048x2048_S2048x2048_S4x2048x2048_2_0_01_1_n_n none x W

/-- elu((x · W) · s) + 1. -/
def feat (x : A3) (W : FVec Ideal S2048x2048 .f32) : A3 :=
  addf (elu (mulf (projD x W) (splat 0x3CB504F3#32))) (splat 0x3F800000#32)

/-- The bias row spread over every batch and time step. -/
def biasAll (bo : FVec Ideal S2048 .f32) : A3 :=
  broadcastInDim S4x2048x2048 ![0, 1, 2] bcast_S1x1x2048_S4x2048x2048_0_1_2
    (broadcastInDim S1x1x2048 ![2] bcast_S2048_S1x1x2048_2 bo)

/-- The whole formula. -/
def refOut (x : A3) (Wq Wk Wv Wo : FVec Ideal S2048x2048 .f32) (bo : FVec Ideal S2048 .f32) : A3 :=
  Host.divf
    (addf
      (Host.dotGeneral dot_S4x2048x2048_S4x2048x2048_S4x2048x2048_2_1_1_2_0_0 none (feat x Wq)
        (Host.dotGeneral dot_S4x2048x2048_S4x2048x2048_S4x2048x2048_1_1_2_2_0_0 none (feat x Wk) (projD x Wv)))
      (Host.tanh (addf (projD (projD x Wv) Wo) (biasAll bo))))
    (addf
      (Host.dotGeneral dot_S4x2048x2048_S4x2048x2048_S4x2048x2048_2_2_1_1_0_0 none (feat x Wq) (feat x Wk))
      (splat 0x322BCC77#32))

end Cert.ReferenceIdeal.RefValue

end
-- ==== Proof.RefRun.lean ====
/-
  The run of the one-pass program, read back. The program is a straight line of fifty-eight whole-array operations, each
  writing one buffer of its own and reading earlier ones, so what a buffer holds at the end is the composition of the
  operations that lead to it: at the result buffer that composition is the one-pass formula — the quotient of
  q·(kᵀ·v) + tanh(v·Wo + bo) by q·kᵀ + ε, with q and k the feature maps elu(· · s) + 1 of two projections of x and v the
  third projection — applied to the six arguments' contents; the arguments' own buffers are written by no operation and
  keep their contents.
-/
import proofs.«151263_j38036230373788_2_alg».proof.Proof.RefOps
import proofs.«151263_j38036230373788_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxRecDepth 8192 in
set_option maxHeartbeats 1000000 in
/-- The result buffer after the fifty-eight operations holds the one-pass formula of the arguments' contents. By
    computation: reading a buffer after an operation gives the operation's value at the buffer it writes and the earlier
    contents at every other, so unrolling the fifty-eight steps from the result buffer back leaves the operations composed
    in the order the formula composes them (a value moved between a buffer's type and the array type it is declared
    at is moved by the identity). -/
theorem out_eq (V : Valuation τ sig (Elt Ideal)) :
    after (ops (F := Ideal)) V (main_v24 : DevRef τ sig)
      = RefValue.refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rfl

/-! No operation writes an argument's buffer: read after all fifty-eight, it holds what it held (again by computation). -/

set_option maxRecDepth 8192 in
theorem arg0_eq (V : Valuation τ sig (Elt Ideal)) :
    after (ops (F := Ideal)) V (main_arg0 : DevRef τ sig) = V (main_arg0 : DevRef τ sig) := by
  rfl

set_option maxRecDepth 8192 in
theorem arg1_eq (V : Valuation τ sig (Elt Ideal)) :
    after (ops (F := Ideal)) V (main_arg1 : DevRef τ sig) = V (main_arg1 : DevRef τ sig) := by
  rfl

set_option maxRecDepth 8192 in
theorem arg2_eq (V : Valuation τ sig (Elt Ideal)) :
    after (ops (F := Ideal)) V (main_arg2 : DevRef τ sig) = V (main_arg2 : DevRef τ sig) := by
  rfl

set_option maxRecDepth 8192 in
theorem arg3_eq (V : Valuation τ sig (Elt Ideal)) :
    after (ops (F := Ideal)) V (main_arg3 : DevRef τ sig) = V (main_arg3 : DevRef τ sig) := by
  rfl

set_option maxRecDepth 8192 in
theorem arg4_eq (V : Valuation τ sig (Elt Ideal)) :
    after (ops (F := Ideal)) V (main_arg4 : DevRef τ sig) = V (main_arg4 : DevRef τ sig) := by
  rfl

set_option maxRecDepth 8192 in
theorem arg5_eq (V : Valuation τ sig (Elt Ideal)) :
    after (ops (F := Ideal)) V (main_arg5 : DevRef τ sig) = V (main_arg5 : DevRef τ sig) := by
  rfl

/-- From any memory with zero counters, every weakly fair execution of the program terminates, with the result buffer at
    the one-pass formula of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = RefValue.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v24).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.LibBatchedDots.lean ====
/-
  Three contractions of stacks of matrices, each read at an entry as a sum over the one contracted coordinate, over
  the extended reals.

  A general contraction's value at a result index j is the sum, over the contraction index, of the products of the
  left operand at (j, c)'s left index and the right operand at its right index. With one contracted axis the
  contraction index is one coordinate c, and it remains to say which coordinates each operand reads:

    a stack times one matrix   [G, m, k] · [k, n]      (contract 2 with 0)           left (g, a, c),  right (c, b)
    transpose-times, per member [G, k, m] , [G, k, n]  (batch 0; contract 1 with 1)  left (g, c, a),  right (g, c, b)
    times-transpose, per member [G, m, k] , [G, n, k]  (batch 0; contract 2 with 2)  left (g, a, c),  right (g, b, c)

  (The fourth arrangement, member times member with contract 2 with 1, is the library's stack product.)
-/
import Idealize.ShloMosaic.PureOps.Ideal.Laws
import Idealize.ShloMosaic.Lib.ValueIdx

noncomputable section

namespace Cert.Lib

open Idealize.ShloMosaic Idealize.ShloMosaic.ValueIdx

variable {G m n k : Nat} {φ₁ φ₂ : FTy}

/-- A stack of matrices times one matrix, over the stack's last axis: entry (g, a, b) is ∑ c, A(g, a, c) · B(c, b). -/
theorem dotGeneral_proj_apply
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply,
    ← Equiv.sum_comp (contrEquiv1 (⟨[2], [0], [0, 1], [1], [], [], w⟩ : DotDims _ _ _) k rfl rfl).symm]
  refine Finset.sum_congr rfl fun c _ => ?_
  have c3 := contrEquiv1_symm_val
    (⟨[2], [0], [0, 1], [1], [], [], w⟩ : DotDims ⟨3, ![G, m, k]⟩ ⟨2, ![k, n]⟩ ⟨3, ![G, m, n]⟩) k rfl rfl c
  have l3 : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact c3
    | ⟨1, _⟩ => simp [DotDims.rhsIdx]; rfl
  rw [l3, r3]

/-- Per member of the stack, the transpose of the first times the second, over the middle axis: entry (g, a, b) is
    ∑ c, A(g, c, a) · B(g, c, b). -/
theorem dotGeneral_mem_apply
    (w : DotDims.WF ⟨3, ![G, k, m]⟩ ⟨3, ![G, k, n]⟩ ⟨3, ![G, m, n]⟩ [1] [1] [2] [2] [0] [0])
    (prec : Option ContractPrecision) (A : FVec Ideal ⟨3, ![G, k, m]⟩ φ₁) (B : FVec Ideal ⟨3, ![G, k, n]⟩ φ₂)
    (g : Fin G) (a : Fin m) (b : Fin n) :
    Host.dotGeneral (⟨[1], [1], [2], [2], [0], [0], w⟩ : DotDims _ _ _) prec A B (ix3 g a b)
      = ∑ c : Fin k, A (ix3 g c a) * B (ix3 g c b) := by
  show FloatOps.dotGeneral _ prec _ A B (ix3 g a b) = _
  rw [Ideal.dotGeneral_apply,
    ← Equiv.sum_comp (contrEquiv1 (⟨[1], [1], [2], [2], [0], [0], w⟩ : DotDims _ _ _) k rfl rfl).symm]
  refine Finset.sum_congr rfl fun c _ => ?_
  have c3 := contrEquiv1_symm_val
    (⟨[1], [1], [2], [2], [0], [0], w⟩ : DotDims ⟨3, ![G, k, m]⟩ ⟨3, ![G, k, n]⟩ ⟨3, ![G, m, n]⟩) k rfl rfl c
  have l3 : (⟨[1], [1], [2], [2], [0], [0], w⟩ : DotDims ⟨3, ![G, k, m]⟩ ⟨3, ![G, k, n]⟩ ⟨3, ![G, m, n]⟩).lhsIdx (ix3 g a b)
      ((contrEquiv1 _ k rfl rfl).symm c) = ix3 g c a := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [1], [2], [2], [0], [0], w⟩ : DotDims ⟨3, ![G, k, m]⟩ ⟨3, ![G, k, n]⟩ ⟨3, ![G, m, n]⟩).rhsIdx (ix3 g a b)
      ((contrEquiv1 _ k rfl rfl).symm c) = ix3 g c b := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

/-- Per member of the stack, the first times the transpose of the second, over the last axis of both: entry (g, a, b)
    is ∑ c, A(g, a, c) · B(g, b, c). -/
theorem dotGeneral_den_apply
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

end Cert.Lib

end
-- ==== Proof.RefDots.lean ====
/-
  The four contractions of the one-pass formula, each read at an index as a sum over the one contracted coordinate.

  A dot_general's value at a result index j is the sum, over the contraction index k, of the products of the left
  operand at (j, k)'s left index and the right operand at its right index. With a single contracted axis the
  contraction index is one coordinate c; what remains is to say which coordinates of j and c each operand reads:

    projection   [G, m, k] · [k, n]      (contract 2 with 0; free 0, 1 | 1)        left (g, a, c),  right (c, b)
    memory       [G, k, m] , [G, k, n]   (batch 0; contract 1 with 1; free 2 | 2)  left (g, c, a),  right (g, c, b)
    denominator  [G, m, k] , [G, n, k]   (batch 0; contract 2 with 2; free 1 | 1)  left (g, a, c),  right (g, b, c)
    numerator    [G, m, k] , [G, k, n]   (batch 0; contract 2 with 1; free 1 | 2)  left (g, a, c),  right (g, c, b)
-/
import proofs.«151263_j38036230373788_2_alg».proof.Proof.RefTerm
import proofs.«151263_j38036230373788_2_alg».proof.Proof.LibBatchedDots
import Idealize.ShloMosaic.PureOps.Ideal.Laws
import Idealize.ShloMosaic.Lib.ValueIdx
import Idealize.ShloMosaic.Lib.StackMember

noncomputable section

namespace Cert.ReferenceIdeal.RefRead

open Cert.ReferenceIdeal Cert.ReferenceIdeal.Gen Idealize.ShloMosaic Idealize.ShloMosaic.ValueIdx
open Idealize.ShloMosaic.StackMember

/-! ## The four contractions of the formula, at its own shapes -/

/-- x · W at (b, t, o). -/
theorem projD_apply (x : FVec Ideal S4x2048x2048 .f32) (W : FVec Ideal S2048x2048 .f32) (b : Fin 4) (t o : Fin 2048) :
    RefValue.projD x W (ix3 b t o) = ∑ i : Fin 2048, x (ix3 b t i) * W (ix2 i o) :=
  Cert.Lib.dotGeneral_proj_apply (G := 4) (m := 2048) (k := 2048) (n := 2048)
    dot_S4x2048x2048_S2048x2048_S4x2048x2048_2_0_01_1_n_n_wf none x W b t o

/-- The memory kᵀ·v at (b, c, d): a sum over time. -/
theorem memDot_apply (K V : FVec Ideal S4x2048x2048 .f32) (b : Fin 4) (c d : Fin 2048) :
    Host.dotGeneral dot_S4x2048x2048_S4x2048x2048_S4x2048x2048_1_1_2_2_0_0 none K V (ix3 b c d)
      = ∑ t : Fin 2048, K (ix3 b t c) * V (ix3 b t d) :=
  Cert.Lib.dotGeneral_mem_apply (G := 4) (m := 2048) (k := 2048) (n := 2048)
    dot_S4x2048x2048_S4x2048x2048_S4x2048x2048_1_1_2_2_0_0_wf none K V b c d

/-- The denominator's q·kᵀ at (b, t, s). -/
theorem denDot_apply (Q K : FVec Ideal S4x2048x2048 .f32) (b : Fin 4) (t s : Fin 2048) :
    Host.dotGeneral dot_S4x2048x2048_S4x2048x2048_S4x2048x2048_2_2_1_1_0_0 none Q K (ix3 b t s)
      = ∑ c : Fin 2048, Q (ix3 b t c) * K (ix3 b s c) :=
  Cert.Lib.dotGeneral_den_apply (G := 4) (m := 2048) (k := 2048) (n := 2048)
    dot_S4x2048x2048_S4x2048x2048_S4x2048x2048_2_2_1_1_0_0_wf none Q K b t s

/-- The numerator's q·memory at (b, t, d). -/
theorem numDot_apply (Q M : FVec Ideal S4x2048x2048 .f32) (b : Fin 4) (t d : Fin 2048) :
    Host.dotGeneral dot_S4x2048x2048_S4x2048x2048_S4x2048x2048_2_1_1_2_0_0 none Q M (ix3 b t d)
      = ∑ c : Fin 2048, Q (ix3 b t c) * M (ix3 b c d) :=
  dotGeneral_stack_apply (G := 4) (m := 2048) (k := 2048) (n := 2048)
    dot_S4x2048x2048_S4x2048x2048_S4x2048x2048_2_1_1_2_0_0_wf none Q M b t d

end Cert.ReferenceIdeal.RefRead

end
-- ==== Proof.RefRead.lean ====
/-
  The one-pass formula read at an index, and its agreement with the staged function.

  Every whole-array operation of the formula is elementwise, a contraction, or a broadcast. Read at (b, t, d):
  a splat is its pattern's value; the bias, broadcast in two steps, is bo(d); the projections, the memory, and the two
  products of the quotient are sums over one coordinate; and the feature map is the one fact about numbers used here,

      elu(z) + 1  =  z + 1  above zero,  exp z  elsewhere,

  where elu(z) is "z above zero, 1 · (exp(z') − 1) elsewhere" with z' = 0 above zero and z elsewhere. Off the
  positive half-line exp z is a real number (or exp ⊥ = 0), so subtracting and adding 1 cancel; no other arithmetic
  law is needed, and the sums on both sides are literally the same sums.
-/
import proofs.«151263_j38036230373788_2_alg».proof.Proof.RefDots
import proofs.«151263_j38036230373788_2_alg».proof.Proof.Spec
import Idealize.ShloMosaic.Lib.Pipeline.Value

noncomputable section

namespace Cert.ReferenceIdeal.RefRead

open Cert.ReferenceIdeal Cert.ReferenceIdeal.Gen Idealize.ShloMosaic Idealize.ShloMosaic.ValueIdx
open Cert.Attn

/-! ## Constants and broadcasts -/

/-- The pattern of 1.0 denotes the number one. -/
theorem ofBits_one_f32 : Ideal.ofBits .f32 0x3F800000#32 = 1 := by
  simp [Ideal.ofBits, Ideal.ieee, -EReal.coe_mul] <;> norm_num

/-- A splat reads its pattern's value everywhere. -/
theorem splat_apply (p : BitVec 32) (i : S4x2048x2048.Idx) : RefValue.splat p i = Ideal.ofBits .f32 p := rfl

/-- The bias, spread over batch and time, reads bo(d) at (b, t, d). -/
theorem biasAll_apply (bo : FVec Ideal S2048 .f32) (b : Fin 4) (t d : Fin 2048) :
    RefValue.biasAll bo (ix3 b t d) = bo (ix1 d) := by
  unfold RefValue.biasAll
  have e1 := broadcastInDim_apply ![0, 1, 2] bcast_S1x1x2048_S4x2048x2048_0_1_2
    (broadcastInDim S1x1x2048 ![2] bcast_S2048_S1x1x2048_2 bo) (ix3 b t d) (ix3 (0 : Fin 1) (0 : Fin 1) d) (by
    intro a
    match a with
    | ⟨0, _⟩ => rfl
    | ⟨1, _⟩ => rfl
    | ⟨2, _⟩ => rfl)
  have e2 := broadcastInDim_apply ![2] bcast_S2048_S1x1x2048_2 bo (ix3 (0 : Fin 1) (0 : Fin 1) d) (ix1 d) (by
    intro a
    match a with
    | ⟨0, _⟩ => rfl)
  exact e1.trans e2

/-! ## The feature map -/

/-- The one law: elu(z) + 1 is z + 1 above zero and exp z elsewhere. -/
theorem elu_add_one (z : EReal) :
    Scalar.select (Ideal.cmp .ogt z 0) z (1 * (Ideal.exp (Scalar.select (Ideal.cmp .ogt z 0) 0 z) - 1)) + 1
      = if 0 < z then z + 1 else Ideal.exp z := by
  by_cases h : 0 < z
  · have hc : Ideal.cmp .ogt z 0 = 1#1 := by simp [Ideal.cmp, h]
    rw [hc, select_one, if_pos h]
  · have hc : Ideal.cmp .ogt z 0 = 0#1 := by simp [Ideal.cmp, h]
    rw [hc, select_zero, select_zero, if_neg h, one_mul]
    induction z using EReal.rec with
    | bot => rw [Ideal.exp_bot, zero_sub, ← EReal.coe_one, ← EReal.coe_neg, ← EReal.coe_add, neg_add_cancel, EReal.coe_zero]
    | coe r =>
      rw [Ideal.exp_coe, ← EReal.coe_one, ← EReal.coe_sub, ← EReal.coe_add, sub_add_cancel]
    | top => exact absurd EReal.zero_lt_top h

/-- elu at an index, in the extended reals' own terms. -/
theorem elu_apply (a : FVec Ideal S4x2048x2048 .f32) (i : S4x2048x2048.Idx) :
    RefValue.elu a i
      = Scalar.select (Ideal.cmp .ogt (a i) 0) (a i)
          (1 * (Ideal.exp (Scalar.select (Ideal.cmp .ogt (a i) 0) 0 (a i)) - 1)) := by
  show Scalar.select (Ideal.cmp .ogt (a i) (Ideal.ofBits .f32 0x00000000#32)) (a i)
      (Ideal.ofBits .f32 0x3F800000#32 * (Ideal.exp (Scalar.select (Ideal.cmp .ogt (a i) (Ideal.ofBits .f32 0x00000000#32))
        (Ideal.ofBits .f32 0x00000000#32) (a i)) - 1)) = _
  rw [Ideal.ofBits_zero_f32, ofBits_one_f32]

/-- φ(x·W) at (b, t, o): the feature map of the projection's sum. -/
theorem feat_apply (x : FVec Ideal S4x2048x2048 .f32) (W : FVec Ideal S2048x2048 .f32) (b : Fin 4) (t o : Fin 2048) :
    RefValue.feat x W (ix3 b t o) = fm (∑ i : Fin 2048, x (ix3 b t i) * W (ix2 i o)) := by
  unfold RefValue.feat
  rw [addf_apply, elu_apply, mulf_apply, splat_apply, splat_apply, projD_apply, ofBits_one_f32, elu_add_one]
  unfold fm dk one
  rw [ofBits_one_f32]

/-! ## The staged function's pieces at an index -/

theorem ofRows_P2fm_apply (x : T3.Idx → EReal) (W : M2.Idx → EReal) (b : Fin 4) (t o : Fin 2048) :
    ofRows (P2fm (toRows x) W) (ix3 b t o) = fm (∑ i : Fin 2048, x (ix3 b t i) * W (ix2 i o)) := by
  show fm (∑ i : Fin 2048, toRows x (ix2 (flat b t) i) * W (ix2 i o)) = _
  simp only [toRows_flat]

theorem ofRows_P2_apply (x : T3.Idx → EReal) (W : M2.Idx → EReal) (b : Fin 4) (t o : Fin 2048) :
    ofRows (P2 (toRows x) W) (ix3 b t o) = ∑ i : Fin 2048, x (ix3 b t i) * W (ix2 i o) := by
  show (∑ i : Fin 2048, toRows x (ix2 (flat b t) i) * W (ix2 i o)) = _
  simp only [toRows_flat]

/-- The two feature-mapped projections, the plain projection, the memory and the tanh term are the staged function's. -/
theorem feat_eq (x : FVec Ideal S4x2048x2048 .f32) (W : FVec Ideal S2048x2048 .f32) :
    RefValue.feat x W = ofRows (P2fm (toRows x) W) := by
  funext i
  obtain ⟨b, t, o, rfl⟩ : ∃ (b : Fin 4) (t o : Fin 2048), i = ix3 b t o := ⟨i 0, i 1, i 2, eq_ix3 i⟩
  rw [feat_apply, ofRows_P2fm_apply]

theorem projD_eq (x : FVec Ideal S4x2048x2048 .f32) (W : FVec Ideal S2048x2048 .f32) :
    RefValue.projD x W = ofRows (P2 (toRows x) W) := by
  funext i
  obtain ⟨b, t, o, rfl⟩ : ∃ (b : Fin 4) (t o : Fin 2048), i = ix3 b t o := ⟨i 0, i 1, i 2, eq_ix3 i⟩
  rw [projD_apply, ofRows_P2_apply]

theorem memDot_eq (K V : FVec Ideal S4x2048x2048 .f32) :
    Host.dotGeneral dot_S4x2048x2048_S4x2048x2048_S4x2048x2048_1_1_2_2_0_0 none K V = Mem K V := by
  funext i
  obtain ⟨b, c, d, rfl⟩ : ∃ (b : Fin 4) (c d : Fin 2048), i = ix3 b c d := ⟨i 0, i 1, i 2, eq_ix3 i⟩
  rw [memDot_apply]
  rfl

theorem tanhTerm_eq (Y : R2.Idx → EReal) (Wo : FVec Ideal S2048x2048 .f32) (bo : FVec Ideal S2048 .f32) :
    Host.tanh (addf (RefValue.projD (ofRows Y) Wo) (RefValue.biasAll bo)) = ofRows (P2t Y Wo (rowVec bo)) := by
  funext i
  obtain ⟨b, t, d, rfl⟩ : ∃ (b : Fin 4) (t d : Fin 2048), i = ix3 b t d := ⟨i 0, i 1, i 2, eq_ix3 i⟩
  show Ideal.tanh (RefValue.projD (ofRows Y) Wo (ix3 b t d) + RefValue.biasAll bo (ix3 b t d)) = _
  rw [projD_apply, biasAll_apply]
  rfl

/-! ## The formula is the staged function -/

theorem refOut_eq (x : FVec Ideal S4x2048x2048 .f32) (Wq Wk Wv Wo : FVec Ideal S2048x2048 .f32)
    (bo : FVec Ideal S2048 .f32) :
    RefValue.refOut x Wq Wk Wv Wo bo = Cert.Attn.G x Wq Wk Wv Wo bo := by
  unfold RefValue.refOut
  rw [feat_eq, feat_eq, projD_eq, tanhTerm_eq, memDot_eq]
  funext i
  obtain ⟨b, t, d, rfl⟩ : ∃ (b : Fin 4) (t d : Fin 2048), i = ix3 b t d := ⟨i 0, i 1, i 2, eq_ix3 i⟩
  show Ideal.div (_ + _) (_ + _) = _
  rw [numDot_apply, denDot_apply, splat_apply]
  rfl

end Cert.ReferenceIdeal.RefRead

end
-- ==== Proof.lean ====
/-
  Linear attention with an ELU+1 feature map: a program staged as six pipelined regions over the [8192, 2048]
  flattening of x, against the one-pass formula out = (q·(kᵀ·v) + tanh(v·Wo + bo)) / (q·kᵀ + ε) with q = φ(x·Wq),
  k = φ(x·Wk), v = x·Wv and φ(a) = elu(a·s) + 1.

  Over the extended reals both are the same function G of the six arrays (Proof/Spec.lean). The staged side: each
  region's blocks tile its output array and each block is the region's formula of the blocks it reads (a row-block
  matrix product is rows of the whole product; a per-batch, per-tile contraction over all of time is a tile of kᵀ·v; a
  tile of the quotient reads rows of q, rows of k, columns of the memory and a tile of the tanh term), and the buffers
  are followed from boundary to boundary. The one-pass side: the host operations are run in order, the outlined elu
  inlined, and the resulting composition is read at an index. The only arithmetic fact used is that elu(z) + 1 is z + 1
  above zero and exp z elsewhere (off the positive half-line exp z is real, so subtracting and adding one cancel);
  every sum is the same sum over the same index on both sides, so no distributivity and no finiteness is used, and the
  proof never opens the precondition. The idealized program is the program's own text read at exact values: the
  rewriting pass changed nothing, so there is nothing to preserve.
-/
import proofs.«151263_j38036230373788_2_alg».proof.Defs
import proofs.«151263_j38036230373788_2_alg».proof.Proof.Gen.Kernel
import proofs.«151263_j38036230373788_2_alg».proof.Proof.Gen.Kernel.Frame
import proofs.«151263_j38036230373788_2_alg».proof.Proof.Gen.KernelIdeal
import proofs.«151263_j38036230373788_2_alg».proof.Proof.Gen.KernelIdeal.Frame
import proofs.«151263_j38036230373788_2_alg».proof.Proof.Gen.ReferenceIdeal
import proofs.«151263_j38036230373788_2_alg».proof.Proof.Gen.Pre_finite_inputs
import proofs.«151263_j38036230373788_2_alg».proof.Proof.KRun
import proofs.«151263_j38036230373788_2_alg».proof.Proof.Chain
import proofs.«151263_j38036230373788_2_alg».proof.Proof.RefRun
import proofs.«151263_j38036230373788_2_alg».proof.Proof.RefRead
import Idealize.ShloMosaic.Adequacy
import Idealize.ShloMosaic.Init

noncomputable section

namespace Cert.Proof

open Idealize.ShloMosaic Idealize.SL.Sem

/-- The three programs run to the end without a fault and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RefRun.run m ρ)

/-- The staged program's result is G of its arguments; the one-pass program's result is the formula, which is G of its
    arguments; the arguments agree. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.w10_v15 m ρ c), (h c).2⟩)
      (Cert.KernelIdeal.StagedRun.run (F := Ideal) m ρ)
  · refine (θ_run Cert.ReferenceIdeal.defs _ _).mono (fun _ h c => ⟨(h c).1.trans ?_, (h c).2⟩)
      (Cert.ReferenceIdeal.RefRun.run m' ρ')
    rw [Cert.ReferenceIdeal.RefRead.refOut_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
